-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S_ : Shape := ⟨0, ![]⟩

class Facts : Prop where
  bcast_S_S131072x55 : S_.BroadcastsInDim S131072x55 (![] : Fin 0 → Fin S131072x55.rank)
  reducesTo_S131072x55_S_d0_1 : S131072x55.ReducesTo [0, 1] S_
  h_S_ : 0 < S_.numel
  bcast_S_S131072x10 : S_.BroadcastsInDim S131072x10 (![] : Fin 0 → Fin S131072x10.rank)
  reducesTo_S131072x10_S_d0_1 : S131072x10.ReducesTo [0, 1] S_
  bcast_S_S55x128 : S_.BroadcastsInDim S55x128 (![] : Fin 0 → Fin S55x128.rank)
  reducesTo_S55x128_S_d0_1 : S55x128.ReducesTo [0, 1] S_
  bcast_S_S20x128 : S_.BroadcastsInDim S20x128 (![] : Fin 0 → Fin S20x128.rank)
  reducesTo_S20x128_S_d0_1 : S20x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x35 : S_.BroadcastsInDim S128x35 (![] : Fin 0 → Fin S128x35.rank)
  reducesTo_S128x35_S_d0_1 : S128x35.ReducesTo [0, 1] S_
  bcast_S_S1x35 : S_.BroadcastsInDim S1x35 (![] : Fin 0 → Fin S1x35.rank)
  reducesTo_S1x35_S_d0_1 : S1x35.ReducesTo [0, 1] S_

variable [Facts]

def fn_part2 {F : FTy → Type} [FloatOps F] (main_arg7 : FVec F S1x128 .f32) (main_arg8 : FVec F S128x35 .f32) (main_arg9 : FVec F S1x35 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x35 .f32 := Host.absf main_arg8
  let main_cst_14 : FVec F S_ .f32 := constant S_ .f32 0x7F800000#32
  let main_v40 : FVec F S128x35 .f32 := broadcastInDim S128x35 ![] bcast_S_S128x35 main_cst_14
  let main_v41 : IVec S128x35 1 := cmpf .olt main_v39 main_v40
  let main_c_15 : IVec S_ 1 := constantI S_ 1 1#1
  let main_v42 : IVec S_ 1 := (fun x v => Host.reduce IntOp.andi x v reducesTo_S128x35_S_d0_1 h_S_) main_v41 main_c_15
  let main_v43 : IVec S_ 1 := andi main_v38 main_v42
  let main_v44 : FVec F S1x35 .f32 := Host.absf main_arg9
  let main_cst_16 : FVec F S_ .f32 := constant S_ .f32 0x7F800000#32
  let main_v45 : FVec F S1x35 .f32 := broadcastInDim S1x35 ![] bcast_S_S1x35 main_cst_16
  let main_v46 : IVec S1x35 1 := cmpf .olt main_v44 main_v45
  let main_c_17 : IVec S_ 1 := constantI S_ 1 1#1
  let main_v47 : IVec S_ 1 := (fun x v => Host.reduce IntOp.andi x v reducesTo_S1x35_S_d0_1 h_S_) main_v46 main_c_17
  let main_v48 : IVec S_ 1 := andi main_v43 main_v47
  main_v48

def fn_part1 {F : FTy → Type} [FloatOps F] (main_arg4 : FVec F S20x128 .f32) (main_arg5 : FVec F S1x128 .f32) (main_arg6 : FVec F S128x128 .f32) (main_arg7 : FVec F S1x128 .f32) (main_arg8 : FVec F S128x35 .f32) (main_arg9 : FVec F S1x35 .f32) (main_v13 : IVec S_ 1) (main_v16 : IVec S55x128 1) : IVec S_ 1 :=
  let main_c_5 : IVec S_ 1 := constantI S_ 1 1#1
  let main_v17 : IVec S_ 1 := (fun x v => Host.reduce IntOp.andi x v reducesTo_S55x128_S_d0_1 h_S_) main_v16 main_c_5
  let main_v18 : IVec S_ 1 := andi main_v13 main_v17
  let main_v19 : FVec F S20x128 .f32 := Host.absf main_arg4
  let main_cst_6 : FVec F S_ .f32 := constant S_ .f32 0x7F800000#32
  let main_v20 : FVec F S20x128 .f32 := broadcastInDim S20x128 ![] bcast_S_S20x128 main_cst_6
  let main_v21 : IVec S20x128 1 := cmpf .olt main_v19 main_v20
  let main_c_7 : IVec S_ 1 := constantI S_ 1 1#1
  let main_v22 : IVec S_ 1 := (fun x v => Host.reduce IntOp.andi x v reducesTo_S20x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S131072x55 .f32) (main_arg1 : FVec F S131072x10 .f32) (main_arg2 : FVec F S131072x10 .f32) (main_arg3 : FVec F S55x128 .f32) (main_arg4 : FVec F S20x128 .f32) (main_arg5 : FVec F S1x128 .f32) (main_arg6 : FVec F S128x128 .f32) (main_arg7 : FVec F S1x128 .f32) (main_arg8 : FVec F S128x35 .f32) (main_arg9 : FVec F S1x35 .f32) : IVec S_ 1 :=
  let main_v0 : FVec F S131072x55 .f32 := Host.absf main_arg0
  let main_cst : FVec F S_ .f32 := constant S_ .f32 0x7F800000#32
  let main_v1 : FVec F S131072x55 .f32 := broadcastInDim S131072x55 ![] bcast_S_S131072x55 main_cst
  let main_v2 : IVec S131072x55 1 := cmpf .olt main_v0 main_v1
  let main_c : IVec S_ 1 := constantI S_ 1 1#1
  let main_v3 : IVec S_ 1 := (fun x v => Host.reduce IntOp.andi x v reducesTo_S131072x55_S_d0_1 h_S_) main_v2 main_c
  let main_v4 : FVec F S131072x10 .f32 := Host.absf main_arg1
  let main_cst_0 : FVec F S_ .f32 := constant S_ .f32 0x7F800000#32
  let main_v5 : FVec F S131072x10 .f32 := broadcastInDim S131072x10 ![] bcast_S_S131072x10 main_cst_0
  let main_v6 : IVec S131072x10 1 := cmpf .olt main_v4 main_v5
  let main_c_1 : IVec S_ 1 := constantI S_ 1 1#1
  let main_v7 : IVec S_ 1 := (fun x v => Host.reduce IntOp.andi x v reducesTo_S131072x10_S_d0_1 h_S_) main_v6 main_c_1
  let main_v8 : IVec S_ 1 := andi main_v3 main_v7
  let main_v9 : FVec F S131072x10 .f32 := Host.absf main_arg2
  let main_cst_2 : FVec F S_ .f32 := constant S_ .f32 0x7F800000#32
  let main_v10 : FVec F S131072x10 .f32 := broadcastInDim S131072x10 ![] bcast_S_S131072x10 main_cst_2
  let main_v11 : IVec S131072x10 1 := cmpf .olt main_v9 main_v10
  let main_c_3 : IVec S_ 1 := constantI S_ 1 1#1
  let main_v12 : IVec S_ 1 := (fun x v => Host.reduce IntOp.andi x v reducesTo_S131072x10_S_d0_1 h_S_) main_v11 main_c_3
  let main_v13 : IVec S_ 1 := andi main_v8 main_v12
  let main_v14 : FVec F S55x128 .f32 := Host.absf main_arg3
  let main_cst_4 : FVec F S_ .f32 := constant S_ .f32 0x7F800000#32
  let main_v15 : FVec F S55x128 .f32 := broadcastInDim S55x128 ![] bcast_S_S55x128 main_cst_4
  let main_v16 : IVec S55x128 1 := cmpf .olt main_v14 main_v15
  fn_part1 (F := F) main_arg4 main_arg5 main_arg6 main_arg7 main_arg8 main_arg9 main_v13 main_v16
-- ==== Kernel.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S75x128 : Shape := ⟨2, ![75, 128]⟩
abbrev S_ : Shape := ⟨0, ![]⟩
abbrev S131072x75 : Shape := ⟨2, ![131072, 75]⟩
abbrev S131072x128 : Shape := ⟨2, ![131072, 128]⟩
abbrev S16384x75 : Shape := ⟨2, ![16384, 75]⟩
abbrev S16384x128 : Shape := ⟨2, ![16384, 128]⟩
abbrev S131072x35 : Shape := ⟨2, ![131072, 35]⟩

abbrev nBuf : Space → Nat
  | .hbm => 24
  | .vmem => 10
  | .smem => 0
  | _ => 0

abbrev bufTy : (tb : Table) → Fin (tcTables nBuf tb) → BufTy
  | .hbm, ⟨0, _⟩ => ⟨S131072x55, .f32⟩
  | .hbm, ⟨1, _⟩ => ⟨S131072x10, .f32⟩
  | .hbm, ⟨2, _⟩ => ⟨S131072x10, .f32⟩
  | .hbm, ⟨3, _⟩ => ⟨S55x128, .f32⟩
  | .hbm, ⟨4, _⟩ => ⟨S20x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x35, .f32⟩
  | .hbm, ⟨9, _⟩ => ⟨S1x35, .f32⟩
  | .hbm, ⟨10, _⟩ => ⟨S75x128, .f32⟩
  | .hbm, ⟨11, _⟩ => ⟨S75x128, .bf16⟩
  | .hbm, ⟨12, _⟩ => ⟨S128x128, .bf16⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S128x128, .bf16⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S131072x75, .f32⟩
  | .hbm, ⟨21, _⟩ => ⟨S131072x75, .bf16⟩
  | .hbm, ⟨22, _⟩ => ⟨S131072x128, .f32⟩
  | .hbm, ⟨23, _⟩ => ⟨S131072x35, .f32⟩
  | .local _ .vmem, ⟨0, _⟩ => ⟨S16384x75, .bf16⟩
  | .local _ .vmem, ⟨1, _⟩ => ⟨S16384x75, .bf16⟩
  | .local _ .vmem, ⟨2, _⟩ => ⟨S75x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S16384x128, .f32⟩
  | .local _ .vmem, ⟨9, _⟩ => ⟨S16384x128, .f32⟩
  | _, _ => ⟨S131072x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x75 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S55x128_S20x128_S75x128_d0 : Shape.Concatenates [S55x128, S20x128] S75x128 0
  bitsLt_bf16_f32 : FTy.bits .bf16 < FTy.bits .f32
  pads_S128x35_S128x128_000_0930 : S128x35.Pads (![0, 0] : Fin 2 → Nat) ![0, 93] ![0, 0] S128x128
  h_S_ : 0 < S_.numel
  pads_S1x35_S1x128_000_0930 : S1x35.Pads (![0, 0] : Fin 2 → Nat) ![0, 93] ![0, 0] S1x128
  concatenates_S131072x55_S131072x10_S131072x10_S131072x75_d1 : Shape.Concatenates [S131072x55, S131072x10, S131072x10] S131072x75 1
  inb_S16384x75_S16384x75_0_0 : ∀ a, (![0, 0] : Fin 2 → Nat) a + S16384x75.size a ≤ S16384x75.size a
  h_S16384x75 : 0 < S16384x75.numel
  shapeCasts_S16384x75_S16384x75 : S16384x75.ShapeCasts S16384x75
  inb_S75x128_S75x128_0_0 : ∀ a, (![0, 0] : Fin 2 → Nat) a + S75x128.size a ≤ S75x128.size a
  h_S75x128 : 0 < S75x128.numel
  shapeCasts_S75x128_S75x128 : S75x128.ShapeCasts S75x128
  inb_S1x128_S1x128_0_0 : ∀ a, (![0, 0] : Fin 2 → Nat) a + S1x128.size a ≤ S1x128.size a
  h_S1x128 : 0 < S1x128.numel
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  inb_S16384x128_S16384x128_0_0 : ∀ a, (![0, 0] : Fin 2 → Nat) a + S16384x128.size a ≤ S16384x128.size a
  h_S16384x128 : 0 < S16384x128.numel
  slices_S131072x128_S131072x35_0_0 : S131072x128.Slices ![0, 0] S131072x35
  dot_S16384x75_S75x128_S16384x128_1_0_0_1_n_n_wf : DotDims.WF S16384x75 S75x128 S16384x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x75.size a ≤ S131072x75.size a
  hwx0_0 : ∀ i : grid0.Coords, EltTy.bits .bf16 = 32 ∨ (Rect.block (s := S131072x75) S16384x75.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x128.size a ≤ S75x128.size a
  hwx0_1 : ∀ i : grid0.Coords, EltTy.bits .bf16 = 32 ∨ (Rect.block (s := S75x128) S75x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x128.size a ≤ S131072x128.size a
  hwx0_7 : ∀ i : grid0.Coords, EltTy.bits .f32 = 32 ∨ (Rect.block (s := S131072x128) S16384x128.size (cc0_transform_7 i) (hinb0_7 i)).WholeWords (EltTy.packing .f32)

variable [Facts₀]

def dot_S16384x75_S75x128_S16384x128_1_0_0_1_n_n : DotDims S16384x75 S75x128 S16384x128 where
  lhsContracting := [1]
  rhsContracting := [0]
  lhsNonContracting := [0]
  rhsNonContracting := [1]
  lhsBatch := []
  rhsBatch := []
  wf := dot_S16384x75_S75x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v7) S16384x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S75x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S16384x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S131072x20 : Shape := ⟨2, ![131072, 20]⟩
abbrev S131072x35 : Shape := ⟨2, ![131072, 35]⟩
abbrev S2048x55 : Shape := ⟨2, ![2048, 55]⟩
abbrev S2048x20 : Shape := ⟨2, ![2048, 20]⟩
abbrev S2048x35 : Shape := ⟨2, ![2048, 35]⟩
abbrev S2048x128 : Shape := ⟨2, ![2048, 128]⟩

abbrev nBuf : Space → Nat
  | .hbm => 12
  | .vmem => 13
  | .smem => 0
  | _ => 0

abbrev bufTy : (tb : Table) → Fin (tcTables nBuf tb) → BufTy
  | .hbm, ⟨0, _⟩ => ⟨S131072x55, .f32⟩
  | .hbm, ⟨1, _⟩ => ⟨S131072x10, .f32⟩
  | .hbm, ⟨2, _⟩ => ⟨S131072x10, .f32⟩
  | .hbm, ⟨3, _⟩ => ⟨S55x128, .f32⟩
  | .hbm, ⟨4, _⟩ => ⟨S20x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x35, .f32⟩
  | .hbm, ⟨9, _⟩ => ⟨S1x35, .f32⟩
  | .hbm, ⟨10, _⟩ => ⟨S131072x20, .f32⟩
  | .hbm, ⟨11, _⟩ => ⟨S131072x35, .f32⟩
  | .local _ .vmem, ⟨0, _⟩ => ⟨S2048x55, .f32⟩
  | .local _ .vmem, ⟨1, _⟩ => ⟨S2048x55, .f32⟩
  | .local _ .vmem, ⟨2, _⟩ => ⟨S2048x20, .f32⟩
  | .local _ .vmem, ⟨3, _⟩ => ⟨S2048x20, .f32⟩
  | .local _ .vmem, ⟨4, _⟩ => ⟨S55x128, .f32⟩
  | .local _ .vmem, ⟨5, _⟩ => ⟨S20x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x35, .f32⟩
  | .local _ .vmem, ⟨10, _⟩ => ⟨S1x35, .f32⟩
  | .local _ .vmem, ⟨11, _⟩ => ⟨S2048x35, .f32⟩
  | .local _ .vmem, ⟨12, _⟩ => ⟨S2048x35, .f32⟩
  | _, _ => ⟨S131072x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S55x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x35 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x35 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x35 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S131072x10_S131072x10_S131072x20_d1 : Shape.Concatenates [S131072x10, S131072x10] S131072x20 1
  inb_S2048x55_S2048x55_0_0 : ∀ a, (![0, 0] : Fin 2 → Nat) a + S2048x55.size a ≤ S2048x55.size a
  h_S2048x55 : 0 < S2048x55.numel
  inb_S55x128_S55x128_0_0 : ∀ a, (![0, 0] : Fin 2 → Nat) a + S55x128.size a ≤ S55x128.size a
  h_S55x128 : 0 < S55x128.numel
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S128x35_S128x35_0_0 : ∀ a, (![0, 0] : Fin 2 → Nat) a + S128x35.size a ≤ S128x35.size a
  h_S128x35 : 0 < S128x35.numel
  inb_S1x35_S1x35_0_0 : ∀ a, (![0, 0] : Fin 2 → Nat) a + S1x35.size a ≤ S1x35.size a
  h_S1x35 : 0 < S1x35.numel
  broadcasts_S1x35_S2048x35 : S1x35.Broadcasts S2048x35
  inb_S2048x35_S2048x35_0_0 : ∀ a, (![0, 0] : Fin 2 → Nat) a + S2048x35.size a ≤ S2048x35.size a
  h_S2048x35 : 0 < S2048x35.numel
  dot_S2048x55_S55x128_S2048x128_1_0_0_1_n_n_wf : DotDims.WF S2048x55 S55x128 S2048x128 [1] [0] [0] [1] [] []
  dot_S2048x20_S20x128_S2048x128_1_0_0_1_n_n_wf : DotDims.WF S2048x20 S20x128 S2048x128 [1] [0] [0] [1] [] []
  dot_S2048x128_S128x128_S2048x128_1_0_0_1_n_n_wf : DotDims.WF S2048x128 S128x128 S2048x128 [1] [0] [0] [1] [] []
  dot_S2048x128_S128x35_S2048x35_1_0_0_1_n_n_wf : DotDims.WF S2048x128 S128x35 S2048x35 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x55.size a ≤ S131072x55.size a
  hwx0_0 : ∀ i : grid0.Coords, EltTy.bits .f32 = 32 ∨ (Rect.block (s := S131072x55) S2048x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x20.size a ≤ S131072x20.size a
  hwx0_1 : ∀ i : grid0.Coords, EltTy.bits .f32 = 32 ∨ (Rect.block (s := S131072x20) S2048x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S55x128.size a ≤ S55x128.size a
  hwx0_2 : ∀ i : grid0.Coords, EltTy.bits .f32 = 32 ∨ (Rect.block (s := S55x128) S55x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x128.size a ≤ S20x128.size a
  hwx0_3 : ∀ i : grid0.Coords, EltTy.bits .f32 = 32 ∨ (Rect.block (s := S20x128) S20x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x35.size a ≤ S128x35.size a
  hwx0_7 : ∀ i : grid0.Coords, EltTy.bits .f32 = 32 ∨ (Rect.block (s := S128x35) S128x35.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x35.size a ≤ S1x35.size a
  hwx0_8 : ∀ i : grid0.Coords, EltTy.bits .f32 = 32 ∨ (Rect.block (s := S1x35) S1x35.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x35.size a ≤ S131072x35.size a
  hwx0_9 : ∀ i : grid0.Coords, EltTy.bits .f32 = 32 ∨ (Rect.block (s := S131072x35) S2048x35.size (cc0_transform_9 i) (hinb0_9 i)).WholeWords (EltTy.packing .f32)

variable [Facts₀]

def dot_S2048x55_S55x128_S2048x128_1_0_0_1_n_n : DotDims S2048x55 S55x128 S2048x128 where
  lhsContracting := [1]
  rhsContracting := [0]
  lhsNonContracting := [0]
  rhsNonContracting := [1]
  lhsBatch := []
  rhsBatch := []
  wf := dot_S2048x55_S55x128_S2048x128_1_0_0_1_n_n_wf
def dot_S2048x20_S20x128_S2048x128_1_0_0_1_n_n : DotDims S2048x20 S20x128 S2048x128 where
  lhsContracting := [1]
  rhsContracting := [0]
  lhsNonContracting := [0]
  rhsNonContracting := [1]
  lhsBatch := []
  rhsBatch := []
  wf := dot_S2048x20_S20x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x35_S2048x35_1_0_0_1_n_n : DotDims S2048x128 S128x35 S2048x35 where
  lhsContracting := [1]
  rhsContracting := [0]
  lhsNonContracting := [0]
  rhsNonContracting := [1]
  lhsBatch := []
  rhsBatch := []
  wf := dot_S2048x128_S128x35_S2048x35_1_0_0_1_n_n_wf

abbrev win0_0 : Pipeline.Window sig grid0 :=
  Pipeline.Window.ofSpec (Memref.whole main_arg0) S2048x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S55x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S20x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x35.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x35.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2048x35.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.KernelFrame.lean ====
/-
  The frame of `Kernel`: its @main is five stretches of host operations (the two weight blocks stacked and rounded, the
  second weight matrix rounded, the last layer's weights and bias padded with zero columns from 35 to 128, the three
  inputs set side by side and rounded), ONE region over a grid of 8 points, and one host line after it (the slice of the
  first 35 columns).  Every window is read or written whole through one literal rectangle, the seven inputs are never
  written by the body, and the body stores the whole output block, so at each point the output's staging buffer ends at
  ONE function of the seven input blocks (`out7`); the inputs' buffers hold their blocks whether fetched at the point
  or before it.  From this the pipeline library gives the run: every weakly fair execution terminates with the result
  array at what the eight write-backs leave and every other buffer as the host lines leave it, and no host line, before
  or after the region, writes an argument array.
-/
import proofs.«107250_g2000306996616987_pallasbulk_880_21_alg».proof.Proof.Gen.Kernel.Launch
import proofs.«107250_g2000306996616987_pallasbulk_880_21_alg».proof.Proof.Gen.Kernel.Skeleton
import proofs.«107250_g2000306996616987_pallasbulk_880_21_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only the sliced result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the two biases the pipeline stages as inputs, the eight others that bypass it — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 2).trans (((dats 0 c).arrAt_in 2 rfl _).trans ((hA c 2).trans (V_main_arg5 m c))),
      ((h c).2 main_arg6 (Pipeline.mem_restRefs_of main_arg6 (by decide) (by decide))).trans (W_main_arg6 m dats c),
      ((h c).1 4).trans (((dats 0 c).arrAt_in 4 rfl _).trans ((hA c 4).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

abbrev rX : Rect S16384x75 := Rect.unit (s := S16384x75) ![0, 0] S16384x75.size inb_S16384x75_S16384x75_0_0
abbrev rW1 : Rect S75x128 := Rect.unit (s := S75x128) ![0, 0] S75x128.size inb_S75x128_S75x128_0_0
abbrev rB : Rect S1x128 := Rect.unit (s := S1x128) ![0, 0] S1x128.size inb_S1x128_S1x128_0_0
abbrev rW : Rect S128x128 := Rect.unit (s := S128x128) ![0, 0] S128x128.size inb_S128x128_S128x128_0_0
abbrev rO : Rect S16384x128 := Rect.unit (s := S16384x128) ![0, 0] S16384x128.size inb_S16384x128_S16384x128_0_0

/-- The output's staging buffer after the body, from the seven input blocks: its one store, of the body's arithmetic
    over the blocks each read whole. -/
def out7 (x0 : Vec F S16384x75 .bf16) (x1 : Vec F S75x128 .bf16) (x2 : Vec F S1x128 .f32) (x3 : Vec F S128x128 .bf16) (x4 : Vec F S1x128 .f32) (x5 : Vec F S128x128 .bf16) (x6 : Vec F S1x128 .f32) : Vec F S16384x128 .f32 :=
  View.canon [⟨rO, k0_pay1 (View.ld x0 rX) (View.ld x1 rW1) (View.ld x2 rB) (View.ld x3 rW) (View.ld x4 rB) (View.ld x5 rW) (View.ld x6 rB)⟩]

/-- The one store covers the buffer. -/
theorem cover7 (p0 : Vec F S16384x128 .f32) (y : S16384x128.Idx) :
    ∃ pc ∈ ([⟨rO, p0⟩] : List (View.Piece (Elt F) S16384x128 .f32)), y ∈ pc.1.set :=
  View.cover_of_tiled [⟨rO, p0⟩] S16384x128.size (by rfl) y

/-! ## The body's triple -/

set_option maxHeartbeats 1000000 in
/-- The body on whole staging memrefs, the inputs' at contents `xW` and the output's at anything, runs to the continuation
    holding the inputs' as they were and the output's at `out7` of them. -/
theorem sound_kernel (c : Dev nD) (E : Set ℕ) (i : grid0.Coords) (arg1 : Memref sig .tc .vmem S16384x75 .bf16) (harg1 : arg1.IsWhole) (arg2 : Memref sig .tc .vmem S75x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S16384x128 .f32) (harg8 : arg8.IsWhole)
    (x0 : Vec F S16384x75 .bf16) (x1 : Vec F S75x128 .bf16) (x2 : Vec F S1x128 .f32) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data of the pipeline on core `c`: the arrays as the region finds them; after the body at point `t` each
    input's buffer at its block and the output's at `out7` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdealFrame.lean ====
/-
  The frame of `KernelIdeal`: its @main is five stretches of host operations (the two weight blocks stacked and rounded, the
  second weight matrix rounded, the last layer's weights and bias padded with zero columns from 35 to 128, the three
  inputs set side by side and rounded), ONE region over a grid of 8 points, and one host line after it (the slice of the
  first 35 columns).  Every window is read or written whole through one literal rectangle, the seven inputs are never
  written by the body, and the body stores the whole output block, so at each point the output's staging buffer ends at
  ONE function of the seven input blocks (`out7`); the inputs' buffers hold their blocks whether fetched at the point
  or before it.  From this the pipeline library gives the run: every weakly fair execution terminates with the result
  array at what the eight write-backs leave and every other buffer as the host lines leave it, and no host line, before
  or after the region, writes an argument array.
-/
import proofs.«107250_g2000306996616987_pallasbulk_880_21_alg».proof.Proof.Gen.KernelIdeal.Launch
import proofs.«107250_g2000306996616987_pallasbulk_880_21_alg».proof.Proof.Gen.KernelIdeal.Skeleton
import proofs.«107250_g2000306996616987_pallasbulk_880_21_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only the sliced result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host line before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host line before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- No host line before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host line before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))
/-- Nor does the line after it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the two biases the pipeline stages as inputs, the eight others that bypass it — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 2).trans (((dats 0 c).arrAt_in 2 rfl _).trans ((hA c 2).trans (V_main_arg5 m c))),
      ((h c).2 main_arg6 (Pipeline.mem_restRefs_of main_arg6 (by decide) (by decide))).trans (W_main_arg6 m dats c),
      ((h c).1 4).trans (((dats 0 c).arrAt_in 4 rfl _).trans ((hA c 4).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

abbrev rX : Rect S16384x75 := Rect.unit (s := S16384x75) ![0, 0] S16384x75.size inb_S16384x75_S16384x75_0_0
abbrev rW1 : Rect S75x128 := Rect.unit (s := S75x128) ![0, 0] S75x128.size inb_S75x128_S75x128_0_0
abbrev rB : Rect S1x128 := Rect.unit (s := S1x128) ![0, 0] S1x128.size inb_S1x128_S1x128_0_0
abbrev rW : Rect S128x128 := Rect.unit (s := S128x128) ![0, 0] S128x128.size inb_S128x128_S128x128_0_0
abbrev rO : Rect S16384x128 := Rect.unit (s := S16384x128) ![0, 0] S16384x128.size inb_S16384x128_S16384x128_0_0

/-- The output's staging buffer after the body, from the seven input blocks: its one store, of the body's arithmetic
    over the blocks each read whole. -/
def out7 (x0 : Vec F S16384x75 .bf16) (x1 : Vec F S75x128 .bf16) (x2 : Vec F S1x128 .f32) (x3 : Vec F S128x128 .bf16) (x4 : Vec F S1x128 .f32) (x5 : Vec F S128x128 .bf16) (x6 : Vec F S1x128 .f32) : Vec F S16384x128 .f32 :=
  View.canon [⟨rO, k0_pay1 (View.ld x0 rX) (View.ld x1 rW1) (View.ld x2 rB) (View.ld x3 rW) (View.ld x4 rB) (View.ld x5 rW) (View.ld x6 rB)⟩]

/-- The one store covers the buffer. -/
theorem cover7 (p0 : Vec F S16384x128 .f32) (y : S16384x128.Idx) :
    ∃ pc ∈ ([⟨rO, p0⟩] : List (View.Piece (Elt F) S16384x128 .f32)), y ∈ pc.1.set :=
  View.cover_of_tiled [⟨rO, p0⟩] S16384x128.size (by rfl) y

/-! ## The body's triple -/

set_option maxHeartbeats 1000000 in
/-- The body on whole staging memrefs, the inputs' at contents `xW` and the output's at anything, runs to the continuation
    holding the inputs' as they were and the output's at `out7` of them. -/
theorem sound_kernel (c : Dev nD) (E : Set ℕ) (i : grid0.Coords) (arg1 : Memref sig .tc .vmem S16384x75 .bf16) (harg1 : arg1.IsWhole) (arg2 : Memref sig .tc .vmem S75x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S16384x128 .f32) (harg8 : arg8.IsWhole)
    (x0 : Vec F S16384x75 .bf16) (x1 : Vec F S75x128 .bf16) (x2 : Vec F S1x128 .f32) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The pipeline's proof data -/

/-- The proof data of the pipeline on core `c`: the arrays as the region finds them; after the body at point `t` each
    input's buffer at its block and the output's at `out7` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Mlp.lean ====
/-
  The network both programs compute, read one batch row at a time over the extended reals.

  A row of the input is an observation of 55 numbers and an action pair of 20; the first layer is affine into 128
  hidden units, its weight matrix given in two row blocks (55 rows for the observation, 20 for the actions); the
  second layer is affine from 128 to 128 followed by the leaky rectifier (x where x ≥ 0, the slope word times x
  elsewhere); the last layer is affine from 128 to 35.  One program contracts the 75 inputs against the stacked
  weight matrix in one sum, the other adds the two partial sums: a sum over Fin (55 + 20) is the sum over its first 55
  indices plus the sum over its last 20, which holds in any commutative additive monoid, so also among the
  extended reals with their infinities (`first_stacked`).
-/
import Idealize.ShloMosaic.Lib.ValueIdx
import Idealize.ShloMosaic.PureOps.Ideal.Laws

noncomputable section

open scoped BigOperators

namespace Cert.Mlp

open Idealize.ShloMosaic Idealize.ShloMosaic.ValueIdx

/-- The leaky rectifier as both bodies spell it: `x` where `x ≥ 0`, the slope word `0x3C23D70A` times `x` elsewhere. -/
def leaky (x : EReal) : EReal :=
  Scalar.select (FloatOps.cmpf (F := Ideal) (φ := .f32) .oge x (Scalar.ofBits (F := Ideal) .f32 0x00000000#32)) x
    ((Scalar.ofBits (F := Ideal) .f32 0x3C23D70A#32 : Ideal .f32) * x)

/-- The first layer at hidden unit `c`, the two partial sums added first, then the bias. -/
def first (obs : Fin 55 → EReal) (act : Fin 20 → EReal) (w1o : Fin 55 → Fin 128 → EReal) (w1a : Fin 20 → Fin 128 → EReal)
    (b1 : Fin 128 → EReal) (c : Fin 128) : EReal :=
  (∑ k : Fin 55, obs k * w1o k c + ∑ k : Fin 20, act k * w1a k c) + b1 c

/-- The second layer before the rectifier. -/
def second (h : Fin 128 → EReal) (w2 : Fin 128 → Fin 128 → EReal) (b2 : Fin 128 → EReal) (c : Fin 128) : EReal :=
  ∑ k : Fin 128, h k * w2 k c + b2 c

/-- The last layer at output `j`. -/
def last (a : Fin 128 → EReal) (w3 : Fin 128 → Fin 35 → EReal) (b3 : Fin 35 → EReal) (j : Fin 35) : EReal :=
  ∑ k : Fin 128, a k * w3 k j + b3 j

/-- One row of the network's output. -/
def row (obs : Fin 55 → EReal) (act : Fin 20 → EReal) (w1o : Fin 55 → Fin 128 → EReal) (w1a : Fin 20 → Fin 128 → EReal)
    (b1 : Fin 128 → EReal) (w2 : Fin 128 → Fin 128 → EReal) (b2 : Fin 128 → EReal) (w3 : Fin 128 → Fin 35 → EReal)
    (b3 : Fin 35 → EReal) (j : Fin 35) : EReal :=
  last (fun c => leaky (second (first obs act w1o w1a b1) w2 b2 c)) w3 b3 j

/-- Contracting all 75 inputs against the stacked weights in one sum is adding the two partial sums. -/
theorem first_stacked (x : Fin (55 + 20) → EReal) (w : Fin (55 + 20) → Fin 128 → EReal) (b1 : Fin 128 → EReal) (c : Fin 128) :
    ∑ k : Fin (55 + 20), x k * w k c + b1 c
      = first (fun k => x (Fin.castAdd 20 k)) (fun k => x (Fin.natAdd 55 k)) (fun k => w (Fin.castAdd 20 k))
          (fun k => w (Fin.natAdd 55 k)) b1 c := by
  unfold first
  rw [Fin.sum_univ_add]

/-- The whole result array: row `i 0` of the network on row `i 0` of the three inputs, the two action arrays side by side. -/
def G (obs : (⟨2, ![131072, 55]⟩ : Shape).Idx → EReal) (a1 a2 : (⟨2, ![131072, 10]⟩ : Shape).Idx → EReal)
    (w1o : (⟨2, ![55, 128]⟩ : Shape).Idx → EReal) (w1a : (⟨2, ![20, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (w3 : (⟨2, ![128, 35]⟩ : Shape).Idx → EReal)
    (b3 : (⟨2, ![1, 35]⟩ : Shape).Idx → EReal) : (⟨2, ![131072, 35]⟩ : Shape).Idx → EReal := fun i =>
  row (fun k => obs (ix2 (i 0) k))
    (Fin.addCases (m := 10) (n := 10) (fun k => a1 (ix2 (i 0) k)) (fun k => a2 (ix2 (i 0) k)))
    (fun k c => w1o (ix2 k c)) (fun k c => w1a (ix2 k c)) (fun c => b1 (ix2 0 c))
    (fun k c => w2 (ix2 k c)) (fun c => b2 (ix2 0 c)) (fun k j => w3 (ix2 k j)) (fun j => b3 (ix2 0 j)) (i 1)

end Cert.Mlp

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelPay.lean ====
/-
  The kernel body's arithmetic, read one entry at a time over the extended reals.  At row p of a block of 16384
  rows and column j of its 128 columns the stored value is the last affine layer (into the padded 128 columns) of the
  rectified second layer of the first layer, the first layer ONE contraction over all 75 inputs against the stacked
  weights; the roundings to the narrow float format are the identity on extended reals, and each matrix product into
  a zero accumulator is the finite sum over the contracted index.
-/
import proofs.«107250_g2000306996616987_pallasbulk_880_21_alg».proof.Proof.Gen.KernelIdeal.Skeleton
import proofs.«107250_g2000306996616987_pallasbulk_880_21_alg».proof.Proof.Mlp
import proofs.«107250_g2000306996616987_pallasbulk_880_21_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Net

open Cert.KernelIdeal Cert.KernelIdeal.Gen
open Idealize.ShloMosaic Idealize.ShloMosaic.ValueIdx

/-- The first layer as the kernel computes it: one sum over the 75 stacked inputs, then the bias. -/
def firstStacked (x : Fin 75 → EReal) (w : Fin 75 → Fin 128 → EReal) (b1 : Fin 128 → EReal) (c : Fin 128) : EReal :=
  ∑ k : Fin 75, x k * w k c + b1 c

/-- An affine layer on a block of 16384 rows — the product into a zero accumulator plus the bias row repeated down the
    rows — at row `p` and unit `c`: the sum over the contracted index plus the bias at `c`. -/
theorem affine_apply {K : Nat} {φ₁ φ₂ : FTy} (D : DotDims ⟨2, ![16384, K]⟩ ⟨2, ![K, 128]⟩ ⟨2, ![16384, 128]⟩)
    (hlc : D.lhsContracting = [1]) (hrc : D.rhsContracting = [0]) (hln : D.lhsNonContracting = [0])
    (hrn : D.rhsNonContracting = [1]) (hlb : D.lhsBatch = []) (hrb : D.rhsBatch = [])
    (A : FVec Ideal ⟨2, ![16384, K]⟩ φ₁) (B : FVec Ideal ⟨2, ![K, 128]⟩ φ₂) (b : FVec Ideal ⟨2, ![1, 128]⟩ .f32)
    (hb : (⟨2, ![1, 128]⟩ : Shape).Broadcasts ⟨2, ![16384, 128]⟩) (p : Fin 16384) (c : Fin 128) :
    addf (matmul D none A B (constant ⟨2, ![16384, 128]⟩ .f32 0x00000000#32)) (broadcastTo ⟨2, ![16384, 128]⟩ b hb) (ix2 p c)
      = ∑ k : Fin K, A (ix2 p k) * B (ix2 k c) + b (ix2 (0 : Fin 1) c) :=
  congrArg₂ (· + ·) (Cert.LibMatmulNN.matmul_nn_apply D hlc hrc hln hrn hlb hrb none A B p c)
    (broadcastTo_1b_ab_apply b hb p c)

/-- One entry of the block the body stores, as a function of the seven loaded blocks. -/
theorem pay_apply (x0 : Vec Ideal S16384x75 .bf16) (x1 : Vec Ideal S75x128 .bf16) (x2 : Vec Ideal S1x128 .f32)
    (x3 : Vec Ideal S128x128 .bf16) (x4 : Vec Ideal S1x128 .f32) (x5 : Vec Ideal S128x128 .bf16) (x6 : Vec Ideal S1x128 .f32)
    (p : Fin 16384) (j : Fin 128) :
    k0_pay1 (F := Ideal) x0 x1 x2 x3 x4 x5 x6 (ix2 p j)
      = ∑ k : Fin 128, Cert.Mlp.leaky (Cert.Mlp.second
            (firstStacked (fun k => x0 (ix2 p k)) (fun k c => x1 (ix2 k c)) (fun c => x2 (ix2 (0 : Fin 1) c)))
            (fun k c => x3 (ix2 k c)) (fun c => x4 (ix2 (0 : Fin 1) c)) k) * x5 (ix2 k j) + x6 (ix2 (0 : Fin 1) j) := by
  unfold k0_pay1
  simp only [shapeCast_self]
  refine (affine_apply (φ₁ := .bf16) (φ₂ := .bf16) _ rfl rfl rfl rfl rfl rfl _ _ _ _ p j).trans ?_
  refine congrArg (· + x6 (ix2 (0 : Fin 1) j)) (Finset.sum_congr rfl fun k _ => congrArg (· * x5 (ix2 k j)) ?_)
  refine congrArg Cert.Mlp.leaky ?_
  refine (affine_apply (φ₁ := .bf16) (φ₂ := .bf16) _ rfl rfl rfl rfl rfl rfl _ _ _ _ p k).trans ?_
  refine congrArg (· + x4 (ix2 (0 : Fin 1) k)) (Finset.sum_congr rfl fun k' _ => congrArg (· * x3 (ix2 k' k)) ?_)
  exact affine_apply (φ₁ := .bf16) (φ₂ := .bf16) _ rfl rfl rfl rfl rfl rfl _ _ _ _ p k'

end Cert.KernelIdeal.Net

end
-- ==== Proof.KernelBlocks.lean ====
/-
  From the kernel's blocks to its whole result array.  The grid has 8 points; point t reads rows
  16384·t … 16384·t + 16383 of the stacked input and writes the same rows of the 128-column result, every other
  window being one whole array at every point.  So what point t writes back is the restriction to those rows of ONE
  function of the arrays the region finds (`padded`): entry (r, j) is the last affine layer, into the padded column j, of the
  rectified second layer of the first layer on row r.  The 8 row ranges cover the array, hence the array ends at that
  function.
-/
import proofs.«107250_g2000306996616987_pallasbulk_880_21_alg».proof.Proof.KernelIdealFrame
import proofs.«107250_g2000306996616987_pallasbulk_880_21_alg».proof.Proof.KernelPay
import Idealize.ShloMosaic.Lib.Pipeline.Value
import Idealize.ShloMosaic.Lib.ValueIdx

set_option maxRecDepth 65536

noncomputable section

open scoped BigOperators

namespace Cert.KernelIdeal.Net

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The padded result as one function of the arrays the region finds: the stacked input X, the stacked first weights
    W1, the biases B1 B2 B3, the second weights W2 and the padded last weights W3. -/
def padded (X : S131072x75.Idx → EReal) (W1 : S75x128.Idx → EReal) (B1 : S1x128.Idx → EReal) (W2 : S128x128.Idx → EReal)
    (B2 : S1x128.Idx → EReal) (W3 : S128x128.Idx → EReal) (B3 : S1x128.Idx → EReal) : S131072x128.Idx → EReal := fun i =>
  ∑ k : Fin 128, Cert.Mlp.leaky (Cert.Mlp.second
      (firstStacked (fun k => X (ix2 (i 0) k)) (fun k c => W1 (ix2 k c)) (fun c => B1 (ix2 (0 : Fin 1) c)))
      (fun k c => W2 (ix2 k c)) (fun c => B2 (ix2 (0 : Fin 1) c)) k) * W3 (ix2 k (i 1)) + B3 (ix2 (0 : Fin 1) (i 1))

theorem hz : (![0, 0] : Fin 2 → Nat) = fun _ => 0 := funext fun a => by fin_cases a <;> rfl

/-- The index maps over the grid: the input and the result move one block of rows per point, the other windows stay. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 8 :=
  lt_of_lt_of_eq t.isLt (show cfg0.N = 8 from N_0)

/-- Row p of the input block at point t is row 16384·t + p of the stacked input. -/
theorem blk_x (c : Dev nD) (t : Fin cfg0.N) (p : Fin 16384) (k : Fin 75) :
    iblk m c 0 t (ix2 p k) = V m c main_v7 (ix2 (⟨t.val * 16384 + p.val, by have := point_lt t; omega⟩ : Fin 131072) k) := by
  show V m c main_v7 (((cfg0.win 0).blk t).view.emb (ix2 p k)) = _
  refine congrArg (V m c main_v7) (funext fun a => Fin.ext ?_)
  obtain ⟨e0, e1, -⟩ := idx_facts t
  match a with
  | ⟨0, _⟩ => show win0_0.index t (0 : Fin 2) * 16384 + 1 * p.val = t.val * 16384 + p.val; omega
  | ⟨1, _⟩ => show win0_0.index t (1 : Fin 2) * 75 + 1 * k.val = k.val; omega

/-- The other six windows are whole arrays at every point. -/
theorem blk_w1 (c : Dev nD) (t : Fin cfg0.N) (k : Fin 75) (u : Fin 128) : iblk m c 1 t (ix2 k u) = V m c main_v1 (ix2 k u) := by
  show V m c main_v1 (((cfg0.win 1).blk t).view.emb (ix2 k u)) = _
  refine congrArg (V m c main_v1) (funext fun a => Fin.ext ?_)
  obtain ⟨-, -, -, -, e0, e1, -⟩ := idx_facts t
  match a with
  | ⟨0, _⟩ => show win0_1.index t (0 : Fin 2) * 75 + 1 * k.val = k.val; omega
  | ⟨1, _⟩ => show win0_1.index t (1 : Fin 2) * 128 + 1 * u.val = u.val; omega
theorem blk_b1 (c : Dev nD) (t : Fin cfg0.N) (u : Fin 128) : iblk m c 2 t (ix2 (0 : Fin 1) u) = V m c main_arg5 (ix2 (0 : Fin 1) u) := by
  show V m c main_arg5 (((cfg0.win 2).blk t).view.emb (ix2 (0 : Fin 1) u)) = _
  refine congrArg (V m c main_arg5) (funext fun a => Fin.ext ?_)
  obtain ⟨-, -, -, -, -, -, e0, e1, -⟩ := idx_facts t
  match a with
  | ⟨0, _⟩ => show win0_2.index t (0 : Fin 2) * 1 + 1 * 0 = 0; omega
  | ⟨1, _⟩ => show win0_2.index t (1 : Fin 2) * 128 + 1 * u.val = u.val; omega
theorem blk_w2 (c : Dev nD) (t : Fin cfg0.N) (k : Fin 128) (u : Fin 128) : iblk m c 3 t (ix2 k u) = V m c main_v2 (ix2 k u) := by
  show V m c main_v2 (((cfg0.win 3).blk t).view.emb (ix2 k u)) = _
  refine congrArg (V m c main_v2) (funext fun a => Fin.ext ?_)
  obtain ⟨-, -, -, -, -, -, -, -, e0, e1, -⟩ := idx_facts t
  match a with
  | ⟨0, _⟩ => show win0_3.index t (0 : Fin 2) * 128 + 1 * k.val = k.val; omega
  | ⟨1, _⟩ => show win0_3.index t (1 : Fin 2) * 128 + 1 * u.val = u.val; omega
theorem blk_b2 (c : Dev nD) (t : Fin cfg0.N) (u : Fin 128) : iblk m c 4 t (ix2 (0 : Fin 1) u) = V m c main_arg7 (ix2 (0 : Fin 1) u) := by
  show V m c main_arg7 (((cfg0.win 4).blk t).view.emb (ix2 (0 : Fin 1) u)) = _
  refine congrArg (V m c main_arg7) (funext fun a => Fin.ext ?_)
  obtain ⟨-, -, -, -, -, -, -, -, -, -, e0, e1, -⟩ := idx_facts t
  match a with
  | ⟨0, _⟩ => show win0_4.index t (0 : Fin 2) * 1 + 1 * 0 = 0; omega
  | ⟨1, _⟩ => show win0_4.index t (1 : Fin 2) * 128 + 1 * u.val = u.val; omega
theorem blk_w3 (c : Dev nD) (t : Fin cfg0.N) (k : Fin 128) (u : Fin 128) : iblk m c 5 t (ix2 k u) = V m c main_v4 (ix2 k u) := by
  show V m c main_v4 (((cfg0.win 5).blk t).view.emb (ix2 k u)) = _
  refine congrArg (V m c main_v4) (funext fun a => Fin.ext ?_)
  obtain ⟨-, -, -, -, -, -, -, -, -, -, -, -, e0, e1, -⟩ := idx_facts t
  match a with
  | ⟨0, _⟩ => show win0_5.index t (0 : Fin 2) * 128 + 1 * k.val = k.val; omega
  | ⟨1, _⟩ => show win0_5.index t (1 : Fin 2) * 128 + 1 * u.val = u.val; omega
theorem blk_b3 (c : Dev nD) (t : Fin cfg0.N) (u : Fin 128) : iblk m c 6 t (ix2 (0 : Fin 1) u) = V m c main_v5 (ix2 (0 : Fin 1) u) := by
  show V m c main_v5 (((cfg0.win 6).blk t).view.emb (ix2 (0 : Fin 1) u)) = _
  refine congrArg (V m c main_v5) (funext fun a => Fin.ext ?_)
  obtain ⟨-, -, -, -, -, -, -, -, -, -, -, -, -, -, e0, e1⟩ := idx_facts t
  match a with
  | ⟨0, _⟩ => show win0_6.index t (0 : Fin 2) * 1 + 1 * 0 = 0; omega
  | ⟨1, _⟩ => show win0_6.index t (1 : Fin 2) * 128 + 1 * u.val = u.val; omega

/-- Entry (p, j) of the result block at point t is entry (16384·t + p, j) of the result array. -/
theorem emb_out (t : Fin cfg0.N) (p : Fin 16384) (j : Fin 128) :
    ((cfg0.win 7).blk t).view.emb (ix2 p j) = ix2 (⟨t.val * 16384 + p.val, by have := point_lt t; omega⟩ : Fin 131072) j := by
  refine funext fun a => Fin.ext ?_
  obtain ⟨-, -, e0, e1, -⟩ := idx_facts t
  match a with
  | ⟨0, _⟩ => show win0_7.index t (0 : Fin 2) * 16384 + 1 * p.val = t.val * 16384 + p.val; omega
  | ⟨1, _⟩ => show win0_7.index t (1 : Fin 2) * 128 + 1 * j.val = j.val; omega

/-- What point t writes back is block t of `padded` of the arrays the region finds. -/
theorem flushed_eq (c : Dev nD) (t : Fin cfg0.N) :
    (dats m 0 c).flushed 7 t = ((cfg0.win 7).blk t).view.read (Elt Ideal)
      (padded (V m c main_v7) (V m c main_v1) (V m c main_arg5) (V m c main_v2) (V m c main_arg7) (V m c main_v4) (V m c main_v5)) := by
  show (cfg0.win 7).cut (grid0.coords t) ((dats m 0 c).after 7 t) = _
  rw [after7]
  unfold out7
  rw [View.canon_unit_zero hz]
  simp only [View.ld_unit_zero (S := S16384x75) hz, View.ld_unit_zero (S := S75x128) hz, View.ld_unit_zero (S := S1x128) hz,
    View.ld_unit_zero (S := S128x128) hz]
  funext y
  obtain ⟨p, j, rfl⟩ : ∃ (p : Fin 16384) (j : Fin 128), y = ix2 p j := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p j)
    = padded (V m c main_v7) (V m c main_v1) (V m c main_arg5) (V m c main_v2) (V m c main_arg7) (V m c main_v4) (V m c main_v5)
        (((cfg0.win 7).blk t).view.emb (ix2 p j))
  rw [emb_out t p j]
  refine (pay_apply _ _ _ _ _ _ _ p j).trans ?_
  simp only [blk_x, blk_w1, blk_b1, blk_w2, blk_b2, blk_w3, blk_b3]
  rfl

/-- An index of the result array is in point t's block iff each coordinate is in the block's range. -/
theorem mem_blk (t : Fin cfg0.N) (i : S131072x128.Idx) :
    i ∈ ((cfg0.win 7).blk t).view.set ↔ ∀ a : Fin 2, win0_7.index t a * S16384x128.size a ≤ (i a).val
      ∧ (i a).val < win0_7.index t a * S16384x128.size a + S16384x128.size a := by
  show i ∈ ((View.whole main_v8).slice (win0_7.rect t)).set ↔ _
  rw [View.set_slice_whole, Rect.mem_set_unit]
  exact Iff.rfl

/-- Row r of the result array is written by point r / 16384. -/
theorem cover (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  have ht : (i 0).val / 16384 < cfg0.N := lt_of_lt_of_eq (by omega : (i 0).val / 16384 < 8) (show cfg0.N = 8 from N_0).symm
  obtain ⟨-, -, e0, e1, -⟩ := idx_facts ⟨(i 0).val / 16384, ht⟩
  refine ⟨⟨(i 0).val / 16384, ht⟩, flush0_7 _, ?_⟩
  rw [mem_blk]
  intro a
  match a with
  | ⟨0, _⟩ =>
    show win0_7.index ⟨(i 0).val / 16384, ht⟩ (0 : Fin 2) * 16384 ≤ (i 0).val
      ∧ (i 0).val < win0_7.index ⟨(i 0).val / 16384, ht⟩ (0 : Fin 2) * 16384 + 16384
    rw [e0]; show (i 0).val / 16384 * 16384 ≤ (i 0).val ∧ (i 0).val < (i 0).val / 16384 * 16384 + 16384; omega
  | ⟨1, _⟩ =>
    show win0_7.index ⟨(i 0).val / 16384, ht⟩ (1 : Fin 2) * 128 ≤ (i 1).val
      ∧ (i 1).val < win0_7.index ⟨(i 0).val / 16384, ht⟩ (1 : Fin 2) * 128 + 128
    omega

/-- The result array after the run. -/
theorem final (c : Dev nD) : (dats m 0 c).arrAt 7 cfg0.N
    = padded (V m c main_v7) (V m c main_v1) (V m c main_arg5) (V m c main_v2) (V m c main_arg7) (V m c main_v4) (V m c main_v5) :=
  (dats m 0 c).arrAt_eq_of_cover 7 _ (fun t _ => flushed_eq m c t) cover

end Cert.KernelIdeal.Net

end
-- ==== Proof.KernelEntry.lean ====
/-
  What the region finds in the arrays the host lines before it wrote, in terms of the launch memory.  The stacked input
  is the observation and the two action arrays side by side (columns 0–54, 55–64, 65–74); the stacked first weights
  are the two weight blocks one above the other (rows 0–54, 55–74); the last layer's weights and bias are the given
  ones in columns 0–34 (the padding fills the other columns); a rounding to the narrow format changes no extended real.
-/
import proofs.«107250_g2000306996616987_pallasbulk_880_21_alg».proof.Proof.KernelIdealFrame
import Idealize.ShloMosaic.Lib.Pipeline.Value
import Idealize.ShloMosaic.Lib.ValueIdx
import Idealize.ShloMosaic.Lib.StableHlo.Run
import Idealize.ShloMosaic.Lib.KernelVsHost

noncomputable section

namespace Cert.KernelIdeal.Net

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- Running two stretches of host lines one after the other. -/
theorem after_append {Val : EltTy → Type} [∀ e, Nonempty (Val e)] (l₁ l₂ : List (HloOp τ sig Val)) (F : Valuation τ sig Val) :
    StableHlo.after (l₁ ++ l₂) F = StableHlo.after l₂ (StableHlo.after l₁ F) := by
  induction l₁ generalizing F with
  | nil => rfl
  | cons op ops ih => exact ih _

/-- The stacked input the region finds: the three inputs side by side. -/
theorem entry_x (c : Dev nD) : (V m c main_v7 : S131072x75.Idx → EReal)
    = (truncf (F := Ideal) (s := S131072x75) (φ := .f32) .bf16 (concatenate S131072x75 1 [⟨S131072x55, (m ((c : Thread nD τ).loc main_arg0) : S131072x55.Idx → EReal)⟩, ⟨S131072x10, (m ((c : Thread nD τ).loc main_arg1) : S131072x10.Idx → EReal)⟩, ⟨S131072x10, (m ((c : Thread nD τ).loc main_arg2) : S131072x10.Idx → EReal)⟩]
        concatenates_S131072x55_S131072x10_S131072x10_S131072x75_d1) bitsLt_bf16_f32 : S131072x75.Idx → EReal) := by
  show StableHlo.after ((hostOps0 ++ hostOps0_1 ++ hostOps0_2 ++ hostOps0_3) ++ hostOps0_4) (fun b => m (c, b)) (Proc.devRef .tc main_v7) = _
  rw [after_append]
  generalize hG : StableHlo.after (hostOps0 ++ hostOps0_1 ++ hostOps0_2 ++ hostOps0_3) (fun b => m (c, b)) = G
  have h0 : G (Proc.devRef .tc main_arg0) = m ((c : Thread nD τ).loc main_arg0) := by
    rw [← hG]
    exact StableHlo.after_of_forall_not_mem (b := Proc.devRef .tc main_arg0) _ _ (List.forall_iff_forall_mem.mp (by
      simp only [hostOps0, hostOps0_1, hostOps0_2, hostOps0_3, List.cons_append, List.nil_append, List.Forall, StableHlo.nullary_writes, StableHlo.unary_writes, StableHlo.binary_writes, StableHlo.nary_writes, Finset.mem_singleton]
      repeat' apply And.intro
      all_goals exact StableHlo.devRef_ne_of_ne (by decide)))
  have h1 : G (Proc.devRef .tc main_arg1) = m ((c : Thread nD τ).loc main_arg1) := by
    rw [← hG]
    exact StableHlo.after_of_forall_not_mem (b := Proc.devRef .tc main_arg1) _ _ (List.forall_iff_forall_mem.mp (by
      simp only [hostOps0, hostOps0_1, hostOps0_2, hostOps0_3, List.cons_append, List.nil_append, List.Forall, StableHlo.nullary_writes, StableHlo.unary_writes, StableHlo.binary_writes, StableHlo.nary_writes, Finset.mem_singleton]
      repeat' apply And.intro
      all_goals exact StableHlo.devRef_ne_of_ne (by decide)))
  have h2 : G (Proc.devRef .tc main_arg2) = m ((c : Thread nD τ).loc main_arg2) := by
    rw [← hG]
    exact StableHlo.after_of_forall_not_mem (b := Proc.devRef .tc main_arg2) _ _ (List.forall_iff_forall_mem.mp (by
      simp only [hostOps0, hostOps0_1, hostOps0_2, hostOps0_3, List.cons_append, List.nil_append, List.Forall, StableHlo.nullary_writes, StableHlo.unary_writes, StableHlo.binary_writes, StableHlo.nary_writes, Finset.mem_singleton]
      repeat' apply And.intro
      all_goals exact StableHlo.devRef_ne_of_ne (by decide)))
  after_results
  show (truncf (F := Ideal) (s := S131072x75) (φ := .f32) .bf16 (concatenate S131072x75 1 [⟨S131072x55, (G (Proc.devRef .tc main_arg0) : S131072x55.Idx → EReal)⟩, ⟨S131072x10, (G (Proc.devRef .tc main_arg1) : S131072x10.Idx → EReal)⟩,
      ⟨S131072x10, (G (Proc.devRef .tc main_arg2) : S131072x10.Idx → EReal)⟩] concatenates_S131072x55_S131072x10_S131072x10_S131072x75_d1) bitsLt_bf16_f32 : S131072x75.Idx → EReal) = _
  rw [h0, h1, h2]

/-- The stacked first weights. -/
theorem entry_w1 (c : Dev nD) : (V m c main_v1 : S75x128.Idx → EReal)
    = (truncf (F := Ideal) (s := S75x128) (φ := .f32) .bf16 (concatenate S75x128 0 [⟨S55x128, (m ((c : Thread nD τ).loc main_arg3) : S55x128.Idx → EReal)⟩, ⟨S20x128, (m ((c : Thread nD τ).loc main_arg4) : S20x128.Idx → EReal)⟩] concatenates_S55x128_S20x128_S75x128_d0) bitsLt_bf16_f32 : S75x128.Idx → EReal) := by
  dsimp only [V, V0]
  simp only [hostOps0, hostOps0_1, hostOps0_2, hostOps0_3, hostOps0_4, List.flatten_cons, List.flatten_nil, List.append_nil, List.cons_append, List.nil_append]
  after_results

/-- The second weights. -/
theorem entry_w2 (c : Dev nD) : (V m c main_v2 : S128x128.Idx → EReal) = (truncf (F := Ideal) (s := S128x128) (φ := .f32) .bf16 (m ((c : Thread nD τ).loc main_arg6) : S128x128.Idx → EReal) bitsLt_bf16_f32 : S128x128.Idx → EReal) := by
  dsimp only [V, V0]
  simp only [hostOps0, hostOps0_1, hostOps0_2, hostOps0_3, hostOps0_4, List.flatten_cons, List.flatten_nil, List.append_nil, List.cons_append, List.nil_append]
  after_results

/-- The padded last weights. -/
theorem entry_w3 (c : Dev nD) : (V m c main_v4 : S128x128.Idx → EReal)
    = (truncf (F := Ideal) (s := S128x128) (φ := .f32) .bf16 (pad (s := S128x35) S128x128 ![0, 0] ![0, 93] ![0, 0] (m ((c : Thread nD τ).loc main_arg8) : S128x35.Idx → EReal) (sitofp (F := Ideal) .f32 (constantI S_ 32 0#32))
        pads_S128x35_S128x128_000_0930 h_S_) bitsLt_bf16_f32 : S128x128.Idx → EReal) := by
  dsimp only [V, V0]
  simp only [hostOps0, hostOps0_1, hostOps0_2, hostOps0_3, hostOps0_4, List.flatten_cons, List.flatten_nil, List.append_nil, List.cons_append, List.nil_append]
  after_results
  rfl

/-- The padded last bias. -/
theorem entry_b3 (c : Dev nD) : (V m c main_v5 : S1x128.Idx → EReal)
    = (pad (s := S1x35) S1x128 ![0, 0] ![0, 93] ![0, 0] (m ((c : Thread nD τ).loc main_arg9) : S1x35.Idx → EReal) (sitofp (F := Ideal) .f32 (constantI S_ 32 0#32)) pads_S1x35_S1x128_000_0930 h_S_ : S1x128.Idx → EReal) := by
  dsimp only [V, V0]
  simp only [hostOps0, hostOps0_1, hostOps0_2, hostOps0_3, hostOps0_4, List.flatten_cons, List.flatten_nil, List.append_nil, List.cons_append, List.nil_append]
  after_results
  rfl

/-! ## The same, entry by entry -/

/-- Columns 0–54 of the stacked input are the observation. -/
theorem x_obs (c : Dev nD) (r : Fin 131072) (k : Fin 55) :
    V m c main_v7 (ix2 r (Fin.castAdd 20 k)) = (m ((c : Thread nD τ).loc main_arg0) : S131072x55.Idx → EReal) (ix2 r k) := by
  rw [entry_x]
  exact concatenate_apply_piece (t := S131072x75) (1 : Fin 2) [⟨S131072x55, (m ((c : Thread nD τ).loc main_arg0) : S131072x55.Idx → EReal)⟩, ⟨S131072x10, (m ((c : Thread nD τ).loc main_arg1) : S131072x10.Idx → EReal)⟩, ⟨S131072x10, (m ((c : Thread nD τ).loc main_arg2) : S131072x10.Idx → EReal)⟩] concatenates_S131072x55_S131072x10_S131072x10_S131072x75_d1
    (ix2 r (Fin.castAdd 20 k)) 0 (by show (0 : ℕ) < 3; omega) S131072x55 (m ((c : Thread nD τ).loc main_arg0) : S131072x55.Idx → EReal) rfl rfl 0 rfl (ix2 r k)
    (fun b hb => by match b with
      | ⟨0, _⟩ => rfl
      | ⟨1, _⟩ => exact absurd rfl hb) (by show 0 + k.val = k.val; omega)

/-- Columns 55–64 are the first action array, columns 65–74 the second. -/
theorem x_act (c : Dev nD) (r : Fin 131072) (k : Fin 20) :
    V m c main_v7 (ix2 r (Fin.natAdd 55 k))
      = (Fin.addCases (m := 10) (n := 10) (fun k => (m ((c : Thread nD τ).loc main_arg1) : S131072x10.Idx → EReal) (ix2 r k)) (fun k => (m ((c : Thread nD τ).loc main_arg2) : S131072x10.Idx → EReal) (ix2 r k)) : Fin (10 + 10) → EReal) k := by
  rw [entry_x]
  refine Fin.addCases (m := 10) (n := 10) (motive := fun k => (truncf (F := Ideal) (s := S131072x75) (φ := .f32) .bf16 (concatenate S131072x75 1 [⟨S131072x55, (m ((c : Thread nD τ).loc main_arg0) : S131072x55.Idx → EReal)⟩, ⟨S131072x10, (m ((c : Thread nD τ).loc main_arg1) : S131072x10.Idx → EReal)⟩, ⟨S131072x10, (m ((c : Thread nD τ).loc main_arg2) : S131072x10.Idx → EReal)⟩] concatenates_S131072x55_S131072x10_S131072x10_S131072x75_d1) bitsLt_bf16_f32 : S131072x75.Idx → EReal) (ix2 r (Fin.natAdd 55 k)) = (Fin.addCases (m := 10) (n := 10) (fun k => (m ((c : Thread nD τ).loc main_arg1) : S131072x10.Idx → EReal) (ix2 r k)) (fun k => (m ((c : Thread nD τ).loc main_arg2) : S131072x10.Idx → EReal) (ix2 r k)) : Fin (10 + 10) → EReal) k) (fun k1 => ?_) (fun k2 => ?_) k
  · simp only [Fin.addCases_left]
    exact concatenate_apply_piece (t := S131072x75) (1 : Fin 2) [⟨S131072x55, (m ((c : Thread nD τ).loc main_arg0) : S131072x55.Idx → EReal)⟩, ⟨S131072x10, (m ((c : Thread nD τ).loc main_arg1) : S131072x10.Idx → EReal)⟩, ⟨S131072x10, (m ((c : Thread nD τ).loc main_arg2) : S131072x10.Idx → EReal)⟩] concatenates_S131072x55_S131072x10_S131072x10_S131072x75_d1
      (ix2 r (Fin.natAdd 55 (Fin.castAdd 10 k1))) 1 (by show (1 : ℕ) < 3; omega) S131072x10 (m ((c : Thread nD τ).loc main_arg1) : S131072x10.Idx → EReal) rfl rfl 55 rfl (ix2 r k1)
      (fun b hb => by match b with
        | ⟨0, _⟩ => rfl
        | ⟨1, _⟩ => exact absurd rfl hb) (by show 55 + k1.val = 55 + k1.val; rfl)
  · simp only [Fin.addCases_right]
    exact concatenate_apply_piece (t := S131072x75) (1 : Fin 2) [⟨S131072x55, (m ((c : Thread nD τ).loc main_arg0) : S131072x55.Idx → EReal)⟩, ⟨S131072x10, (m ((c : Thread nD τ).loc main_arg1) : S131072x10.Idx → EReal)⟩, ⟨S131072x10, (m ((c : Thread nD τ).loc main_arg2) : S131072x10.Idx → EReal)⟩] concatenates_S131072x55_S131072x10_S131072x10_S131072x75_d1
      (ix2 r (Fin.natAdd 55 (Fin.natAdd 10 k2))) 2 (by show (2 : ℕ) < 3; omega) S131072x10 (m ((c : Thread nD τ).loc main_arg2) : S131072x10.Idx → EReal) rfl rfl 65 rfl (ix2 r k2)
      (fun b hb => by match b with
        | ⟨0, _⟩ => rfl
        | ⟨1, _⟩ => exact absurd rfl hb) (by show 65 + k2.val = 55 + (10 + k2.val); omega)

/-- Rows 0–54 of the stacked weights are the observation's block, rows 55–74 the actions' block. -/
theorem w1_obs (c : Dev nD) (k : Fin 55) (u : Fin 128) : V m c main_v1 (ix2 (Fin.castAdd 20 k) u) = (m ((c : Thread nD τ).loc main_arg3) : S55x128.Idx → EReal) (ix2 k u) := by
  rw [entry_w1]
  exact concatenate_apply_piece (t := S75x128) (0 : Fin 2) [⟨S55x128, (m ((c : Thread nD τ).loc main_arg3) : S55x128.Idx → EReal)⟩, ⟨S20x128, (m ((c : Thread nD τ).loc main_arg4) : S20x128.Idx → EReal)⟩] concatenates_S55x128_S20x128_S75x128_d0
    (ix2 (Fin.castAdd 20 k) u) 0 (by show (0 : ℕ) < 2; omega) S55x128 (m ((c : Thread nD τ).loc main_arg3) : S55x128.Idx → EReal) rfl rfl 0 rfl (ix2 k u)
    (fun b hb => by match b with
      | ⟨0, _⟩ => exact absurd rfl hb
      | ⟨1, _⟩ => rfl) (by show 0 + k.val = k.val; omega)
theorem w1_act (c : Dev nD) (k : Fin 20) (u : Fin 128) : V m c main_v1 (ix2 (Fin.natAdd 55 k) u) = (m ((c : Thread nD τ).loc main_arg4) : S20x128.Idx → EReal) (ix2 k u) := by
  rw [entry_w1]
  exact concatenate_apply_piece (t := S75x128) (0 : Fin 2) [⟨S55x128, (m ((c : Thread nD τ).loc main_arg3) : S55x128.Idx → EReal)⟩, ⟨S20x128, (m ((c : Thread nD τ).loc main_arg4) : S20x128.Idx → EReal)⟩] concatenates_S55x128_S20x128_S75x128_d0
    (ix2 (Fin.natAdd 55 k) u) 1 (by show (1 : ℕ) < 2; omega) S20x128 (m ((c : Thread nD τ).loc main_arg4) : S20x128.Idx → EReal) rfl rfl 55 rfl (ix2 k u)
    (fun b hb => by match b with
      | ⟨0, _⟩ => exact absurd rfl hb
      | ⟨1, _⟩ => rfl) (by show 55 + k.val = 55 + k.val; rfl)

theorem w2_apply (c : Dev nD) (k u : Fin 128) : V m c main_v2 (ix2 k u) = (m ((c : Thread nD τ).loc main_arg6) : S128x128.Idx → EReal) (ix2 k u) := by
  rw [entry_w2]; rfl

/-- Columns 0–34 of the padded last weights and bias are the given ones. -/
theorem w3_apply (c : Dev nD) (k : Fin 128) (j : Fin 35) : V m c main_v4 (ix2 k (Fin.castLE (by decide : 35 ≤ 128) j)) = (m ((c : Thread nD τ).loc main_arg8) : S128x35.Idx → EReal) (ix2 k j) := by
  rw [entry_w3]
  exact pad_apply_of_inside (s := S128x35) (t := S128x128) ![0, 0] ![0, 93] ![0, 0] (m ((c : Thread nD τ).loc main_arg8) : S128x35.Idx → EReal) (sitofp (F := Ideal) .f32 (constantI S_ 32 0#32)) pads_S128x35_S128x128_000_0930 h_S_
    (ix2 k (Fin.castLE (by decide : 35 ≤ 128) j)) (ix2 k j) (fun a => by
    match a with
    | ⟨0, _⟩ => show k.val = 0 + k.val * (0 + 1); omega
    | ⟨1, _⟩ => show j.val = 0 + j.val * (0 + 1); omega)
theorem b3_apply (c : Dev nD) (j : Fin 35) : V m c main_v5 (ix2 (0 : Fin 1) (Fin.castLE (by decide : 35 ≤ 128) j)) = (m ((c : Thread nD τ).loc main_arg9) : S1x35.Idx → EReal) (ix2 (0 : Fin 1) j) := by
  rw [entry_b3]
  exact pad_apply_of_inside (s := S1x35) (t := S1x128) ![0, 0] ![0, 93] ![0, 0] (m ((c : Thread nD τ).loc main_arg9) : S1x35.Idx → EReal) (sitofp (F := Ideal) .f32 (constantI S_ 32 0#32)) pads_S1x35_S1x128_000_0930 h_S_
    (ix2 (0 : Fin 1) (Fin.castLE (by decide : 35 ≤ 128) j)) (ix2 (0 : Fin 1) j) (fun a => by
    match a with
    | ⟨0, _⟩ => show 0 = 0 + 0 * (0 + 1); omega
    | ⟨1, _⟩ => show j.val = 0 + j.val * (0 + 1); omega)

end Cert.KernelIdeal.Net

end
-- ==== Proof.KernelValue.lean ====
/-
  The kernel's result, whole.  The result array the region leaves is `padded` of the arrays it found; the host line after
  the region keeps columns 0–34 of every row.  Entry (r, j) is then the last affine layer of the rectified second layer
  of the first layer on row r, and the first layer — ONE sum over the 75 stacked inputs against the stacked weights —
  is the two partial sums of the specification added, because a finite sum over 55 + 20 indices splits at 55.  So the
  result is the specification's function of the launch memory's ten argument arrays.
-/
import proofs.«107250_g2000306996616987_pallasbulk_880_21_alg».proof.Proof.KernelBlocks
import proofs.«107250_g2000306996616987_pallasbulk_880_21_alg».proof.Proof.KernelEntry
import Idealize.ShloMosaic.Lib.Pipeline.Value
import Idealize.ShloMosaic.Lib.ValueIdx
import Idealize.ShloMosaic.Lib.StableHlo.Run

noncomputable section

open scoped BigOperators

namespace Cert.KernelIdeal.Net

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Entry (r, j), j < 35, of the padded result is the specification's entry. -/
theorem padded_apply (c : Dev nD) (r : Fin 131072) (j : Fin 35) :
    padded (V m c main_v7) (V m c main_v1) (V m c main_arg5) (V m c main_v2) (V m c main_arg7) (V m c main_v4) (V m c main_v5)
        (ix2 r (Fin.castLE (by decide : 35 ≤ 128) j))
      = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r j) := by
  have e1 : (fun k : Fin 55 => V m c main_v7 (ix2 r (Fin.castAdd 20 k))) = fun k => (m ((c : Thread nD τ).loc main_arg0) : S131072x55.Idx → EReal) (ix2 r k) :=
    funext fun k => x_obs m c r k
  have e2 : (fun k : Fin 20 => V m c main_v7 (ix2 r (Fin.natAdd 55 k)))
      = (Fin.addCases (m := 10) (n := 10) (fun k => (m ((c : Thread nD τ).loc main_arg1) : S131072x10.Idx → EReal) (ix2 r k)) (fun k => (m ((c : Thread nD τ).loc main_arg2) : S131072x10.Idx → EReal) (ix2 r k)) : Fin (10 + 10) → EReal) :=
    funext fun k => x_act m c r k
  have e3 : (fun (k : Fin 55) (u : Fin 128) => V m c main_v1 (ix2 (Fin.castAdd 20 k) u)) = fun k u => (m ((c : Thread nD τ).loc main_arg3) : S55x128.Idx → EReal) (ix2 k u) :=
    funext fun k => funext fun u => w1_obs m c k u
  have e4 : (fun (k : Fin 20) (u : Fin 128) => V m c main_v1 (ix2 (Fin.natAdd 55 k) u)) = fun k u => (m ((c : Thread nD τ).loc main_arg4) : S20x128.Idx → EReal) (ix2 k u) :=
    funext fun k => funext fun u => w1_act m c k u
  have e5 : (fun u : Fin 128 => V m c main_arg5 (ix2 (0 : Fin 1) u)) = fun u => (m ((c : Thread nD τ).loc main_arg5) : S1x128.Idx → EReal) (ix2 (0 : Fin 1) u) :=
    funext fun u => congrFun (V_main_arg5 m c) _
  have e6 : (fun (k u : Fin 128) => V m c main_v2 (ix2 k u)) = fun k u => (m ((c : Thread nD τ).loc main_arg6) : S128x128.Idx → EReal) (ix2 k u) :=
    funext fun k => funext fun u => w2_apply m c k u
  have e7 : (fun u : Fin 128 => V m c main_arg7 (ix2 (0 : Fin 1) u)) = fun u => (m ((c : Thread nD τ).loc main_arg7) : S1x128.Idx → EReal) (ix2 (0 : Fin 1) u) :=
    funext fun u => congrFun (V_main_arg7 m c) _
  have e8 : (fun k : Fin 128 => V m c main_v4 (ix2 k (Fin.castLE (by decide : 35 ≤ 128) j))) = fun k => (m ((c : Thread nD τ).loc main_arg8) : S128x35.Idx → EReal) (ix2 k j) :=
    funext fun k => w3_apply m c k j
  have e9 : V m c main_v5 (ix2 (0 : Fin 1) (Fin.castLE (by decide : 35 ≤ 128) j)) = (m ((c : Thread nD τ).loc main_arg9) : S1x35.Idx → EReal) (ix2 (0 : Fin 1) j) := b3_apply m c j
  have hfirst : firstStacked (fun k => V m c main_v7 (ix2 r k)) (fun k u => V m c main_v1 (ix2 k u)) (fun u => V m c main_arg5 (ix2 (0 : Fin 1) u))
      = Cert.Mlp.first (fun k => (m ((c : Thread nD τ).loc main_arg0) : S131072x55.Idx → EReal) (ix2 r k))
          (Fin.addCases (m := 10) (n := 10) (fun k => (m ((c : Thread nD τ).loc main_arg1) : S131072x10.Idx → EReal) (ix2 r k)) (fun k => (m ((c : Thread nD τ).loc main_arg2) : S131072x10.Idx → EReal) (ix2 r k)) : Fin (10 + 10) → EReal)
          (fun k u => (m ((c : Thread nD τ).loc main_arg3) : S55x128.Idx → EReal) (ix2 k u)) (fun k u => (m ((c : Thread nD τ).loc main_arg4) : S20x128.Idx → EReal) (ix2 k u)) (fun u => (m ((c : Thread nD τ).loc main_arg5) : S1x128.Idx → EReal) (ix2 (0 : Fin 1) u)) := by
    funext u
    refine (Cert.Mlp.first_stacked (fun k => V m c main_v7 (ix2 r k)) (fun k u => V m c main_v1 (ix2 k u))
      (fun u => V m c main_arg5 (ix2 (0 : Fin 1) u)) u).trans ?_
    show Cert.Mlp.first (fun k : Fin 55 => V m c main_v7 (ix2 r (Fin.castAdd 20 k))) (fun k : Fin 20 => V m c main_v7 (ix2 r (Fin.natAdd 55 k)))
      (fun (k : Fin 55) (u : Fin 128) => V m c main_v1 (ix2 (Fin.castAdd 20 k) u)) (fun (k : Fin 20) (u : Fin 128) => V m c main_v1 (ix2 (Fin.natAdd 55 k) u))
      (fun u : Fin 128 => V m c main_arg5 (ix2 (0 : Fin 1) u)) u = _
    rw [e1, e2, e3, e4, e5]
  show ∑ k : Fin 128, Cert.Mlp.leaky (Cert.Mlp.second
        (firstStacked (fun k => V m c main_v7 (ix2 r k)) (fun k u => V m c main_v1 (ix2 k u)) (fun u => V m c main_arg5 (ix2 (0 : Fin 1) u)))
        (fun (k u : Fin 128) => V m c main_v2 (ix2 k u)) (fun u : Fin 128 => V m c main_arg7 (ix2 (0 : Fin 1) u)) k)
        * (fun k : Fin 128 => V m c main_v4 (ix2 k (Fin.castLE (by decide : 35 ≤ 128) j))) k
        + V m c main_v5 (ix2 (0 : Fin 1) (Fin.castLE (by decide : 35 ≤ 128) j)) = _
  rw [hfirst, e6, e7, e8, e9]
  rfl

/-- The result the host line after the region leaves is the specification's array. -/
theorem result_eq (c : Dev nD) :
    (Pipeline.afterTail₀ cfgs (dats m) 0 (V0 m) [hostOps1] c main_v9 : S131072x35.Idx → EReal) = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v9) = _
  after_results
  rw [(Pipeline.withArrays_arr spec0 launch0.win.arr_inj c _ _ 7).trans (final m c)]
  funext i
  obtain ⟨r, j, rfl⟩ : ∃ (r : Fin 131072) (j : Fin 35), i = ix2 r j := ⟨i 0, i 1, eq_ix2 i⟩
  refine (extractStridedSlice_apply _ _ _ (ix2 r j) (ix2 r (Fin.castLE (by decide : 35 ≤ 128) j)) (fun a => by
    match a with
    | ⟨0, _⟩ => show r.val = 0 + r.val; omega
    | ⟨1, _⟩ => show j.val = 0 + j.val; omega)).trans ?_
  exact padded_apply m c r j

/-- The kernel's run: every weakly fair execution terminates with the result at the specification's array of the launch
    memory's arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v9) = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c))),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Net

end
-- ==== Proof.RefValue.lean ====
/-
  The reference program's result array, read as the network of `Cert.Mlp`.

  The program concatenates the two action arrays side by side and then runs one region over 64 blocks of 2048 rows.
  On a block the body forms, row by row, the first layer (two partial matrix products added, then the bias row), the
  second layer (a matrix product and a bias row) under the leaky rectifier, and the last layer (a matrix product and a
  bias row).  Each matrix product into a zero accumulator is, entry by entry, a finite sum of products; each bias is
  one row repeated over the block.  So the block's entry at row `p`, column `j` is `Cert.Mlp.row` of row `p` of the
  block's observation and action inputs.  Row `p` of block `t` is row `2048 t + p` of the whole arrays, the weight and
  bias blocks are the whole weight and bias arrays, and the 64 blocks cover all 131072 rows: the result array is
  `Cert.Mlp.G` of the argument arrays.
-/
import proofs.«107250_g2000306996616987_pallasbulk_880_21_alg».proof.Proof.Gen.ReferenceIdeal.Value
import proofs.«107250_g2000306996616987_pallasbulk_880_21_alg».proof.Proof.Mlp
import proofs.«107250_g2000306996616987_pallasbulk_880_21_alg».proof.Proof.LibMatmulNN
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## One block: the body's result at row `p`, column `j` -/

/-- The first layer on a block: the two partial products added, then the bias row, at row `p` and hidden unit `c`. -/
theorem first_layer_apply (x0 : FVec Ideal S2048x55 .f32) (x1 : FVec Ideal S2048x20 .f32) (x2 : FVec Ideal S55x128 .f32)
    (x3 : FVec Ideal S20x128 .f32) (x4 : FVec Ideal S1x128 .f32) (p : Fin 2048) (c : Fin 128) :
    addf (addf (matmul dot_S2048x55_S55x128_S2048x128_1_0_0_1_n_n none x0 x2 (constant S2048x128 .f32 0x00000000#32))
        (matmul dot_S2048x20_S20x128_S2048x128_1_0_0_1_n_n none (shapeCast S2048x20 x1 shapeCasts_S2048x20_S2048x20) x3
          (constant S2048x128 .f32 0x00000000#32)))
      (broadcastTo S2048x128 x4 broadcasts_S1x128_S2048x128) (ix2 p c)
      = Cert.Mlp.first (fun k => x0 (ix2 p k)) (fun k => x1 (ix2 p k)) (fun k c => x2 (ix2 k c)) (fun k c => x3 (ix2 k c))
          (fun c => x4 (ix2 0 c)) c := by
  rw [shapeCast_self]
  show (_ + _) + _ = _
  rw [Cert.LibMatmulNN.matmul_nn_apply (M := 2048) (N := 128) (K := 55) _ rfl rfl rfl rfl rfl rfl,
    Cert.LibMatmulNN.matmul_nn_apply (M := 2048) (N := 128) (K := 20) _ rfl rfl rfl rfl rfl rfl,
    broadcastTo_1b_ab_apply]
  rfl

/-- The second layer before the rectifier, on any block of hidden values. -/
theorem second_layer_apply (h : FVec Ideal S2048x128 .f32) (x5 : FVec Ideal S128x128 .f32) (x6 : FVec Ideal S1x128 .f32)
    (p : Fin 2048) (c : Fin 128) :
    addf (matmul dot_S2048x128_S128x128_S2048x128_1_0_0_1_n_n none h x5 (constant S2048x128 .f32 0x00000000#32))
      (broadcastTo S2048x128 x6 broadcasts_S1x128_S2048x128) (ix2 p c)
      = Cert.Mlp.second (fun k => h (ix2 p k)) (fun k c => x5 (ix2 k c)) (fun c => x6 (ix2 0 c)) c := by
  show _ + _ = _
  rw [Cert.LibMatmulNN.matmul_nn_apply (M := 2048) (N := 128) (K := 128) _ rfl rfl rfl rfl rfl rfl,
    broadcastTo_1b_ab_apply]
  rfl

/-- The rectifier as the body spells it, entry by entry. -/
theorem leaky_apply (v : FVec Ideal S2048x128 .f32) (i : S2048x128.Idx) :
    select (cmpf .oge v (broadcast S2048x128 (Scalar.ofBits (F := Ideal) .f32 0x00000000#32))) v
      (mulf (broadcast S2048x128 (Scalar.ofBits (F := Ideal) .f32 0x3C23D70A#32)) v) i = Cert.Mlp.leaky (v i) := rfl

/-- The last layer, on any block of rectified values. -/
theorem last_layer_apply (a : FVec Ideal S2048x128 .f32) (x7 : FVec Ideal S128x35 .f32) (x8 : FVec Ideal S1x35 .f32)
    (p : Fin 2048) (j : Fin 35) :
    addf (matmul dot_S2048x128_S128x35_S2048x35_1_0_0_1_n_n none a x7 (constant S2048x35 .f32 0x00000000#32))
      (broadcastTo S2048x35 x8 broadcasts_S1x35_S2048x35) (ix2 p j)
      = Cert.Mlp.last (fun k => a (ix2 p k)) (fun k j => x7 (ix2 k j)) (fun j => x8 (ix2 0 j)) j := by
  show _ + _ = _
  rw [Cert.LibMatmulNN.matmul_nn_apply (M := 2048) (N := 35) (K := 128) _ rfl rfl rfl rfl rfl rfl,
    broadcastTo_1b_ab_apply]
  rfl

/-- THE BODY'S RESULT on a block, at row `p` and column `j`: the network's row on row `p` of the block's two inputs. -/
theorem payload_row (x0 : Vec Ideal S2048x55 .f32) (x1 : Vec Ideal S2048x20 .f32) (x2 : Vec Ideal S55x128 .f32)
    (x3 : Vec Ideal S20x128 .f32) (x4 : Vec Ideal S1x128 .f32) (x5 : Vec Ideal S128x128 .f32) (x6 : Vec Ideal S1x128 .f32)
    (x7 : Vec Ideal S128x35 .f32) (x8 : Vec Ideal S1x35 .f32) (p : Fin 2048) (j : Fin 35) :
    k0_pay1 x0 x2 x1 x3 x4 x5 x6 x7 x8 (ix2 p j)
      = Cert.Mlp.row (fun k => x0 (ix2 p k)) (fun k => x1 (ix2 p k)) (fun k c => x2 (ix2 k c)) (fun k c => x3 (ix2 k c))
          (fun c => x4 (ix2 0 c)) (fun k c => x5 (ix2 k c)) (fun c => x6 (ix2 0 c)) (fun k j => x7 (ix2 k j))
          (fun j => x8 (ix2 0 j)) j := by
  unfold k0_pay1
  refine (last_layer_apply _ x7 x8 p j).trans ?_
  unfold Cert.Mlp.row
  refine congrArg (fun a => Cert.Mlp.last a _ _ j) (funext fun k => ?_)
  refine (leaky_apply _ (ix2 p k)).trans (congrArg Cert.Mlp.leaky ?_)
  refine (second_layer_apply _ x5 x6 p k).trans ?_
  refine congrArg (fun h => Cert.Mlp.second h _ _ k) (funext fun k' => ?_)
  exact first_layer_apply x0 x1 x2 x3 x4 p k'

/-! ## The windows' blocks as rows of the argument arrays -/

variable (m : (ℓ : Loc nD τ sig) → Buf (Elt Ideal) ℓ) (ρ : Dev nD → PrngReg)

theorem origin_zero : (![0, 0] : Fin 2 → Nat) = fun _ => 0 := funext fun a => by fin_cases a <;> rfl

/-- The index maps over the 64 points: the observation, action and result windows are at block row `t`, column block
    0; each weight and bias window is at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of the observation block at point `t` is row `2048 t + p` of the observation array. -/
theorem obs_block_apply (c : Dev nD) (t : Fin cfg0.N) (p : Fin 2048) (k : Fin 55) (r : Fin 131072)
    (hr : r.val = 2048 * t.val + p.val) :
    (iblk m c 0 t : Vec Ideal S2048x55 .f32) (ix2 p k)
      = (m ((c : Thread nD τ).loc main_arg0) : S131072x55.Idx → EReal) (ix2 r k) := by
  obtain ⟨e0, e1, -⟩ := index_facts t
  unfold iblk
  rw [View.read_apply]
  show V m c main_arg0 _ = _
  rw [V_main_arg0]
  refine congrArg (m ((c : Thread nD τ).loc main_arg0) : S131072x55.Idx → EReal) (funext fun a => Fin.ext ?_)
  match a with
  | ⟨0, _⟩ => show win0_0.index t (0 : Fin 2) * 2048 + 1 * p.val = r.val; rw [e0, hr]; omega
  | ⟨1, _⟩ => show win0_0.index t (1 : Fin 2) * 55 + 1 * k.val = k.val; rw [e1]; omega

/-- Row `p` of the action block at point `t` is row `2048 t + p` of the concatenated action array. -/
theorem act_block_apply (c : Dev nD) (t : Fin cfg0.N) (p : Fin 2048) (k : Fin 20) (r : Fin 131072)
    (hr : r.val = 2048 * t.val + p.val) :
    (iblk m c 1 t : Vec Ideal S2048x20 .f32) (ix2 p k) = (V m c main_v0 : S131072x20.Idx → EReal) (ix2 r k) := by
  obtain ⟨-, -, e0, e1, -⟩ := index_facts t
  unfold iblk
  rw [View.read_apply]
  show V m c main_v0 _ = _
  refine congrArg (V m c main_v0 : S131072x20.Idx → EReal) (funext fun a => Fin.ext ?_)
  match a with
  | ⟨0, _⟩ => show win0_1.index t (0 : Fin 2) * 2048 + 1 * p.val = r.val; rw [e0, hr]; omega
  | ⟨1, _⟩ => show win0_1.index t (1 : Fin 2) * 20 + 1 * k.val = k.val; rw [e1]; omega

/-- The block of each weight and bias window, at every point, is the whole array. -/
theorem w1o_block_apply (c : Dev nD) (t : Fin cfg0.N) (x : S55x128.Idx) :
    (iblk m c 2 t : Vec Ideal S55x128 .f32) x = (m ((c : Thread nD τ).loc main_arg3) : S55x128.Idx → EReal) x := by
  obtain ⟨-, -, -, -, e0, e1, -⟩ := index_facts t
  unfold iblk
  rw [View.read_apply]
  show V m c main_arg3 _ = _
  rw [V_main_arg3]
  refine congrArg (m ((c : Thread nD τ).loc main_arg3) : S55x128.Idx → EReal) (funext fun a => Fin.ext ?_)
  match a with
  | ⟨0, _⟩ => show win0_2.index t (0 : Fin 2) * 55 + 1 * (x 0).val = (x 0).val; rw [e0]; omega
  | ⟨1, _⟩ => show win0_2.index t (1 : Fin 2) * 128 + 1 * (x 1).val = (x 1).val; rw [e1]; omega

theorem w1a_block_apply (c : Dev nD) (t : Fin cfg0.N) (x : S20x128.Idx) :
    (iblk m c 3 t : Vec Ideal S20x128 .f32) x = (m ((c : Thread nD τ).loc main_arg4) : S20x128.Idx → EReal) x := by
  obtain ⟨-, -, -, -, -, -, e0, e1, -⟩ := index_facts t
  unfold iblk
  rw [View.read_apply]
  show V m c main_arg4 _ = _
  rw [V_main_arg4]
  refine congrArg (m ((c : Thread nD τ).loc main_arg4) : S20x128.Idx → EReal) (funext fun a => Fin.ext ?_)
  match a with
  | ⟨0, _⟩ => show win0_3.index t (0 : Fin 2) * 20 + 1 * (x 0).val = (x 0).val; rw [e0]; omega
  | ⟨1, _⟩ => show win0_3.index t (1 : Fin 2) * 128 + 1 * (x 1).val = (x 1).val; rw [e1]; omega

theorem b1_block_apply (c : Dev nD) (t : Fin cfg0.N) (x : S1x128.Idx) :
    (iblk m c 4 t : Vec Ideal S1x128 .f32) x = (m ((c : Thread nD τ).loc main_arg5) : S1x128.Idx → EReal) x := by
  obtain ⟨-, -, -, -, -, -, -, -, e0, e1, -⟩ := index_facts t
  unfold iblk
  rw [View.read_apply]
  show V m c main_arg5 _ = _
  rw [V_main_arg5]
  refine congrArg (m ((c : Thread nD τ).loc main_arg5) : S1x128.Idx → EReal) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

theorem w2_block_apply (c : Dev nD) (t : Fin cfg0.N) (x : S128x128.Idx) :
    (iblk m c 5 t : Vec Ideal S128x128 .f32) x = (m ((c : Thread nD τ).loc main_arg6) : S128x128.Idx → EReal) x := by
  obtain ⟨-, -, -, -, -, -, -, -, -, -, e0, e1, -⟩ := index_facts t
  unfold iblk
  rw [View.read_apply]
  show V m c main_arg6 _ = _
  rw [V_main_arg6]
  refine congrArg (m ((c : Thread nD τ).loc main_arg6) : S128x128.Idx → EReal) (funext fun a => Fin.ext ?_)
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

theorem b2_block_apply (c : Dev nD) (t : Fin cfg0.N) (x : S1x128.Idx) :
    (iblk m c 6 t : Vec Ideal S1x128 .f32) x = (m ((c : Thread nD τ).loc main_arg7) : S1x128.Idx → EReal) x := by
  obtain ⟨-, -, -, -, -, -, -, -, -, -, -, -, e0, e1, -⟩ := index_facts t
  unfold iblk
  rw [View.read_apply]
  show V m c main_arg7 _ = _
  rw [V_main_arg7]
  refine congrArg (m ((c : Thread nD τ).loc main_arg7) : S1x128.Idx → EReal) (funext fun a => Fin.ext ?_)
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

theorem w3_block_apply (c : Dev nD) (t : Fin cfg0.N) (x : S128x35.Idx) :
    (iblk m c 7 t : Vec Ideal S128x35 .f32) x = (m ((c : Thread nD τ).loc main_arg8) : S128x35.Idx → EReal) x := by
  obtain ⟨-, -, -, -, -, -, -, -, -, -, -, -, -, -, e0, e1, -⟩ := index_facts t
  unfold iblk
  rw [View.read_apply]
  show V m c main_arg8 _ = _
  rw [V_main_arg8]
  refine congrArg (m ((c : Thread nD τ).loc main_arg8) : S128x35.Idx → EReal) (funext fun a => Fin.ext ?_)
  match a with
  | ⟨0, _⟩ => show win0_7.index t (0 : Fin 2) * 128 + 1 * (x 0).val = (x 0).val; rw [e0]; omega
  | ⟨1, _⟩ => show win0_7.index t (1 : Fin 2) * 35 + 1 * (x 1).val = (x 1).val; rw [e1]; omega

theorem b3_block_apply (c : Dev nD) (t : Fin cfg0.N) (x : S1x35.Idx) :
    (iblk m c 8 t : Vec Ideal S1x35 .f32) x = (m ((c : Thread nD τ).loc main_arg9) : S1x35.Idx → EReal) x := by
  obtain ⟨-, -, -, -, -, -, -, -, -, -, -, -, -, -, -, -, e0, e1, -⟩ := index_facts t
  unfold iblk
  rw [View.read_apply]
  show V m c main_arg9 _ = _
  rw [V_main_arg9]
  refine congrArg (m ((c : Thread nD τ).loc main_arg9) : S1x35.Idx → EReal) (funext fun a => Fin.ext ?_)
  match a with
  | ⟨0, _⟩ => show win0_8.index t (0 : Fin 2) * 1 + 1 * (x 0).val = (x 0).val; rw [e0]; omega
  | ⟨1, _⟩ => show win0_8.index t (1 : Fin 2) * 35 + 1 * (x 1).val = (x 1).val; rw [e1]; omega

/-! ## The concatenated action array -/

/-- The host line before the region leaves the two action arrays side by side in the second window's array. -/
theorem actions_array (c : Dev nD) :
    (V m c main_v0 : S131072x20.Idx → EReal)
      = concatenate S131072x20 1 [⟨S131072x10, (m ((c : Thread nD τ).loc main_arg1) : S131072x10.Idx → EReal)⟩,
          ⟨S131072x10, (m ((c : Thread nD τ).loc main_arg2) : S131072x10.Idx → EReal)⟩]
          concatenates_S131072x10_S131072x10_S131072x20_d1 := by
  dsimp only [Gen.V, Gen.hostOps0]
  after_results

/-- Two 10-column arrays side by side, read at row `r`: the first array's row on the first ten columns, the second's on
    the last ten. -/
theorem side_by_side_apply (a1 a2 : S131072x10.Idx → EReal) (r : Fin 131072) (k : Fin 20) :
    concatenate S131072x20 1 [⟨S131072x10, a1⟩, ⟨S131072x10, a2⟩] concatenates_S131072x10_S131072x10_S131072x20_d1 (ix2 r k)
      = Fin.addCases (m := 10) (n := 10) (fun k => a1 (ix2 r k)) (fun k => a2 (ix2 r k)) k := by
  by_cases hk : k.val < 10
  · obtain ⟨k', rfl⟩ : ∃ k' : Fin 10, k = Fin.castAdd 10 k' := ⟨⟨k.val, hk⟩, Fin.ext rfl⟩
    rw [Fin.addCases_left]
    exact concatenate_pair_apply_left (1 : Fin 2) a1 a2 _ (ix2 r (Fin.castAdd 10 k')) rfl (ix2 r k') (fun b => by
      match b with
      | ⟨0, _⟩ => rfl
      | ⟨1, _⟩ => rfl)
  · obtain ⟨k', rfl⟩ : ∃ k' : Fin 10, k = Fin.natAdd 10 k' :=
      ⟨⟨k.val - 10, by have := k.isLt; omega⟩, Fin.ext (by show k.val = 10 + (k.val - 10); omega)⟩
    rw [Fin.addCases_right]
    exact concatenate_pair_apply_right (1 : Fin 2) a1 a2 _ (ix2 r (Fin.natAdd 10 k')) rfl rfl (ix2 r k')
      (fun b hb => by
        match b with
        | ⟨0, _⟩ => rfl
        | ⟨1, _⟩ => exact absurd rfl hb)
      (by show k'.val + 10 = 10 + k'.val; omega)

/-! ## The blocks cover the result array -/

/-- An index of the result array is in point `t`'s block iff each coordinate is in the block's range on its axis. -/
theorem mem_block (t : Fin cfg0.N) (i : S131072x35.Idx) :
    i ∈ ((cfg0.win 9).blk t).view.set ↔ ∀ a : Fin 2, win0_9.index t a * S2048x35.size a ≤ (i a).val
      ∧ (i a).val < win0_9.index t a * S2048x35.size a + S2048x35.size a := by
  show i ∈ ((View.whole main_v1).slice (win0_9.rect t)).set ↔ _
  rw [View.set_slice_whole, Rect.mem_set_unit]
  exact Iff.rfl

/-- Row `r` of the result array is in the block of point `r / 2048`. -/
theorem covered (i : S131072x35.Idx) :
    ∃ t : Fin cfg0.N, (cfg0.win 9).flush t = true ∧ i ∈ ((cfg0.win 9).blk t).view.set := by
  have hi0 : (i 0).val < 131072 := (i 0).isLt
  have hi1 : (i 1).val < 35 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨-, -, -, -, -, -, -, -, -, -, -, -, -, -, -, -, -, -, e0, e1⟩ := index_facts t
  refine ⟨t, flush0_9 t, ?_⟩
  rw [mem_block]
  intro a
  match a with
  | ⟨0, _⟩ =>
    show win0_9.index t (0 : Fin 2) * 2048 ≤ (i 0).val ∧ (i 0).val < win0_9.index t (0 : Fin 2) * 2048 + 2048
    rw [e0, ht]; omega
  | ⟨1, _⟩ =>
    show win0_9.index t (1 : Fin 2) * 35 ≤ (i 1).val ∧ (i 1).val < win0_9.index t (1 : Fin 2) * 35 + 35
    rw [e1]; omega

/-! ## Each point writes back its block of the network's result -/

/-- The network's result array on the launch memory's argument arrays. -/
abbrev result (c : Dev nD) : S131072x35.Idx → EReal :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The network's row depends on its nine coordinate functions only through their values. -/
theorem row_congr {o o' : Fin 55 → EReal} {a a' : Fin 20 → EReal} {w1o w1o' : Fin 55 → Fin 128 → EReal}
    {w1a w1a' : Fin 20 → Fin 128 → EReal} {b1 b1' : Fin 128 → EReal} {w2 w2' : Fin 128 → Fin 128 → EReal}
    {b2 b2' : Fin 128 → EReal} {w3 w3' : Fin 128 → Fin 35 → EReal} {b3 b3' : Fin 35 → EReal}
    (h0 : o = o') (h1 : a = a') (h2 : w1o = w1o') (h3 : w1a = w1a') (h4 : b1 = b1') (h5 : w2 = w2') (h6 : b2 = b2')
    (h7 : w3 = w3') (h8 : b3 = b3') (j : Fin 35) :
    Cert.Mlp.row o a w1o w1a b1 w2 b2 w3 b3 j = Cert.Mlp.row o' a' w1o' w1a' b1' w2' b2' w3' b3' j := by
  rw [h0, h1, h2, h3, h4, h5, h6, h7, h8]

/-- Row `p`, column `j` of what the body computes from the blocks at point `t` is the network's result at row
    `2048 t + p`, column `j`. -/
theorem block_entry (c : Dev nD) (t : Fin cfg0.N) (p : Fin 2048) (j : Fin 35) (r : Fin 131072)
    (hr : r.val = 2048 * t.val + p.val) :
    k0_pay1 (iblk m c 0 t) (iblk m c 2 t) (iblk m c 1 t) (iblk m c 3 t) (iblk m c 4 t) (iblk m c 5 t) (iblk m c 6 t)
        (iblk m c 7 t) (iblk m c 8 t) (ix2 p j)
      = result m c (ix2 r j) := by
  have hG : result m c (ix2 r j)
      = Cert.Mlp.row (fun k => ((m ((c : Thread nD τ).loc main_arg0)) : S131072x55.Idx → EReal) (ix2 r k))
          (Fin.addCases (m := 10) (n := 10) (fun k => ((m ((c : Thread nD τ).loc main_arg1)) : S131072x10.Idx → EReal) (ix2 r k))
            (fun k => ((m ((c : Thread nD τ).loc main_arg2)) : S131072x10.Idx → EReal) (ix2 r k)))
          (fun k c' => ((m ((c : Thread nD τ).loc main_arg3)) : S55x128.Idx → EReal) (ix2 k c'))
          (fun k c' => ((m ((c : Thread nD τ).loc main_arg4)) : S20x128.Idx → EReal) (ix2 k c'))
          (fun c' => ((m ((c : Thread nD τ).loc main_arg5)) : S1x128.Idx → EReal) (ix2 0 c'))
          (fun k c' => ((m ((c : Thread nD τ).loc main_arg6)) : S128x128.Idx → EReal) (ix2 k c'))
          (fun c' => ((m ((c : Thread nD τ).loc main_arg7)) : S1x128.Idx → EReal) (ix2 0 c'))
          (fun k j' => ((m ((c : Thread nD τ).loc main_arg8)) : S128x35.Idx → EReal) (ix2 k j'))
          (fun j' => ((m ((c : Thread nD τ).loc main_arg9)) : S1x35.Idx → EReal) (ix2 0 j')) j := rfl
  rw [hG]
  refine (payload_row (iblk m c 0 t) (iblk m c 1 t) (iblk m c 2 t) (iblk m c 3 t) (iblk m c 4 t) (iblk m c 5 t)
    (iblk m c 6 t) (iblk m c 7 t) (iblk m c 8 t) p j).trans ?_
  refine row_congr (funext fun k => obs_block_apply m c t p k r hr) (funext fun k => ?_)
    (funext fun k => funext fun c' => w1o_block_apply m c t (ix2 k c'))
    (funext fun k => funext fun c' => w1a_block_apply m c t (ix2 k c'))
    (funext fun c' => b1_block_apply m c t (ix2 0 c'))
    (funext fun k => funext fun c' => w2_block_apply m c t (ix2 k c'))
    (funext fun c' => b2_block_apply m c t (ix2 0 c'))
    (funext fun k => funext fun j' => w3_block_apply m c t (ix2 k j'))
    (funext fun j' => b3_block_apply m c t (ix2 0 j')) j
  rw [act_block_apply m c t p k r hr, actions_array, side_by_side_apply]

/-- WHAT POINT `t` WRITES BACK is block `t` of the network's result array. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero origin_zero]
  simp only [View.ld_unit_zero (S := S2048x55) origin_zero, View.ld_unit_zero (S := S55x128) origin_zero,
    View.ld_unit_zero (S := S2048x20) origin_zero, View.ld_unit_zero (S := S20x128) origin_zero,
    View.ld_unit_zero (S := S1x128) origin_zero, View.ld_unit_zero (S := S128x128) origin_zero,
    View.ld_unit_zero (S := S128x35) origin_zero, View.ld_unit_zero (S := S1x35) origin_zero]
  obtain ⟨-, -, -, -, -, -, -, -, -, -, -, -, -, -, -, -, -, -, e0, e1⟩ := index_facts t
  have hN : cfg0.N = 64 := N_0
  have ht : t.val < 64 := Nat.lt_of_lt_of_eq t.isLt hN
  funext y
  obtain ⟨p, j, rfl⟩ : ∃ (p : Fin 2048) (j : Fin 35), y = ix2 p j := ⟨y 0, y 1, eq_ix2 y⟩
  show k0_pay1 (iblk m c 0 t) (iblk m c 2 t) (iblk m c 1 t) (iblk m c 3 t) (iblk m c 4 t) (iblk m c 5 t) (iblk m c 6 t)
      (iblk m c 7 t) (iblk m c 8 t) (ix2 p j) = result m c (((cfg0.win 9).blk t).view.emb (ix2 p j))
  have hemb : ((cfg0.win 9).blk t).view.emb (ix2 p j)
      = ix2 (⟨2048 * t.val + p.val, by have := p.isLt; omega⟩ : Fin 131072) j := by
    funext a; apply Fin.ext
    match a with
    | ⟨0, _⟩ => show win0_9.index t (0 : Fin 2) * 2048 + 1 * p.val = 2048 * t.val + p.val; rw [e0]; omega
    | ⟨1, _⟩ => show win0_9.index t (1 : Fin 2) * 35 + 1 * j.val = j.val; rw [e1]; omega
  rw [hemb]
  exact block_entry m c t p j _ rfl

/-- THE RESULT ARRAY after the run is the network's result on the argument arrays: the 64 blocks cover it. -/
theorem final (c : Dev nD) : (dats m 0 c).arrAt 9 cfg0.N = result m c :=
  (dats m 0 c).arrAt_eq_of_cover 9 (result m c) (fun t _ => flushed_eq m c t) covered

/-! ## The run, read -/

/-- Every weakly fair run of the reference program ends with the result array at the network's result on the argument
    arrays as launched, and every argument array as launched. -/
theorem run : θ_run (defs (F := Ideal)) (onTc (τ := τ) (main (F := Ideal))) ⟨m, fun _ => 0, ρ⟩ fun r => ∀ c : Dev nD,
      r.2.mem ((c : Thread nD τ).loc main_v1)
        = Cert.Mlp.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.ReferenceIdeal.RefValue

end
-- ==== Proof.lean ====
/-
  The five claims about a three-layer perceptron on a batch of 131072 rows, computed two ways.

  The kernel sets the observation and the two action arrays side by side into one 75-column input, stacks the two
  blocks of the first weight matrix, pads the last layer's weights and bias with 93 zero columns, runs ONE region over
  8 blocks of 16384 rows — per row: the first affine layer as one contraction over the 75 inputs, the second affine
  layer, the leaky rectifier, the last affine layer into 128 columns — and keeps the first 35 columns.  The reference
  sets the two action arrays side by side, runs one region over 64 blocks of 2048 rows — per row: the first layer as the
  SUM of two contractions (55 observation inputs, 20 action inputs), then the same second layer, rectifier and last
  layer into 35 columns.

  Over the extended reals both results are one function of the ten argument arrays (`Cert.Mlp.G`): roundings to the
  narrow float format are the identity; a contraction into a zero accumulator is a finite sum; the sum over 55 + 20
  indices is the sum over the first 55 plus the sum over the last 20 (associativity and commutativity of addition
  only, so no finiteness of the inputs is used); a padded column never reaches the kept columns; and the tiling of the
  batch into row blocks does not matter because every row's result depends on that row alone.  The frames: every
  window of each kernel is loaded or stored whole, no host line writes an argument array, and the pipeline library's
  frame run gives termination without fault and the arguments unchanged.  The idealization rewrote nothing, so the
  fourth claim is trivial.
-/
import proofs.«107250_g2000306996616987_pallasbulk_880_21_alg».proof.Defs
import proofs.«107250_g2000306996616987_pallasbulk_880_21_alg».proof.Proof.Gen.Kernel
import proofs.«107250_g2000306996616987_pallasbulk_880_21_alg».proof.Proof.Gen.KernelIdeal
import proofs.«107250_g2000306996616987_pallasbulk_880_21_alg».proof.Proof.Gen.ReferenceIdeal
import proofs.«107250_g2000306996616987_pallasbulk_880_21_alg».proof.Proof.Gen.ReferenceIdeal.Frame
import proofs.«107250_g2000306996616987_pallasbulk_880_21_alg».proof.Proof.Gen.Pre_finite_inputs
import proofs.«107250_g2000306996616987_pallasbulk_880_21_alg».proof.Proof.KernelFrame
import proofs.«107250_g2000306996616987_pallasbulk_880_21_alg».proof.Proof.KernelIdealFrame
import proofs.«107250_g2000306996616987_pallasbulk_880_21_alg».proof.Proof.KernelValue
import proofs.«107250_g2000306996616987_pallasbulk_880_21_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Hand.frame (F := Bits) m ρ

/-- So does the kernel read over the extended reals. -/
theorem frame_kernelIdeal : Cert.frame_KernelIdeal := fun m ρ _ => Cert.KernelIdeal.Hand.frame (F := Ideal) m ρ

/-- And the reference. -/
theorem frame_referenceIdeal : Cert.frame_ReferenceIdeal := fun m ρ _ => Cert.ReferenceIdeal.Gen.frame m ρ

/-- The idealization rewrote no operation. -/
theorem preserves : Cert.preserves_Kernel_KernelIdeal := trivial

/-- Both programs end with the specification's array of their (agreeing) arguments. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Net.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
